-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x128 : Shape := ⟨2, ![500000, 128]⟩
abbrev S1000000x128 : Shape := ⟨2, ![1000000, 128]⟩
abbrev S128x128 : Shape := ⟨2, ![128, 128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S1000000x128 : S_.BroadcastsInDim S1000000x128 (![] : Fin 0 → Fin S1000000x128.rank)
  reducesTo_S1000000x128_S_d0_1 : S1000000x128.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg7 : FVec F S64x128 .f32) (main_arg8 : FVec F S64x128 .f32) (main_arg9 : FVec F S64x128 .f32) (main_arg10 : FVec F S64x128 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S64x128 .f32) (main_arg8 : FVec F S64x128 .f32) (main_arg9 : FVec F S64x128 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S500000x128 .f32) (main_arg2 : FVec F S1000000x128 .f32) (main_arg3 : FVec F S128x128 .f32) (main_arg4 : FVec F S128x128 .f32) (main_arg5 : FVec F S128x128 .f32) (main_arg6 : FVec F S128x128 .f32) (main_arg7 : FVec F S64x128 .f32) (main_arg8 : FVec F S64x128 .f32) (main_arg9 : FVec F S64x128 .f32) (main_arg10 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S1000000x128 .f32 := Host.absf main_arg2
  let main_cst_2 : FVec F S_ .f32 := constant S_ .f32 0x7F800000#32
  let main_v10 : FVec F S1000000x128 .f32 := broadcastInDim S1000000x128 ![] bcast_S_S1000000x128 main_cst_2
  let main_v11 : IVec S1000000x128 1 := cmpf .olt main_v9 main_v10
  let main_c_3 : IVec S_ 1 := constantI S_ 1 1#1
  let main_v12 : IVec S_ 1 := (fun x v => Host.reduce IntOp.andi x v reducesTo_S1000000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S500000x128 : Shape := ⟨2, ![500000, 128]⟩
abbrev S1000000x128 : Shape := ⟨2, ![1000000, 128]⟩
abbrev S128x128 : Shape := ⟨2, ![128, 128]⟩
abbrev S64x128 : Shape := ⟨2, ![64, 128]⟩
abbrev S256x128 : Shape := ⟨2, ![256, 128]⟩
abbrev S128x64 : Shape := ⟨2, ![128, 64]⟩
abbrev S256x64 : Shape := ⟨2, ![256, 64]⟩
abbrev S100000x64 : Shape := ⟨2, ![100000, 64]⟩
abbrev S1000x128 : Shape := ⟨2, ![1000, 128]⟩
abbrev S5000x128 : Shape := ⟨2, ![5000, 128]⟩
abbrev S10000x128 : Shape := ⟨2, ![10000, 128]⟩
abbrev S1000x64 : Shape := ⟨2, ![1000, 64]⟩
abbrev S1000x5x128 : Shape := ⟨3, ![1000, 5, 128]⟩
abbrev S5000x2x128 : Shape := ⟨3, ![5000, 2, 128]⟩
abbrev S6000x128 : Shape := ⟨2, ![6000, 128]⟩
abbrev S6000x256 : Shape := ⟨2, ![6000, 256]⟩
abbrev S1000x256 : Shape := ⟨2, ![1000, 256]⟩

abbrev nBuf : Space → Nat
  | .hbm => 24
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S1000000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S128x128, .f32⟩
  | .hbm, ⟨12, _⟩ => ⟨S128x128, .f32⟩
  | .hbm, ⟨13, _⟩ => ⟨S256x128, .f32⟩
  | .hbm, ⟨14, _⟩ => ⟨S128x128, .f32⟩
  | .hbm, ⟨15, _⟩ => ⟨S128x128, .f32⟩
  | .hbm, ⟨16, _⟩ => ⟨S256x128, .f32⟩
  | .hbm, ⟨17, _⟩ => ⟨S128x64, .f32⟩
  | .hbm, ⟨18, _⟩ => ⟨S128x64, .f32⟩
  | .hbm, ⟨19, _⟩ => ⟨S256x64, .f32⟩
  | .hbm, ⟨20, _⟩ => ⟨S128x64, .f32⟩
  | .hbm, ⟨21, _⟩ => ⟨S128x64, .f32⟩
  | .hbm, ⟨22, _⟩ => ⟨S256x64, .f32⟩
  | .hbm, ⟨23, _⟩ => ⟨S100000x64, .f32⟩
  | .local _ .vmem, ⟨0, _⟩ => ⟨S1000x128, .f32⟩
  | .local _ .vmem, ⟨1, _⟩ => ⟨S1000x128, .f32⟩
  | .local _ .vmem, ⟨2, _⟩ => ⟨S5000x128, .f32⟩
  | .local _ .vmem, ⟨3, _⟩ => ⟨S5000x128, .f32⟩
  | .local _ .vmem, ⟨4, _⟩ => ⟨S10000x128, .f32⟩
  | .local _ .vmem, ⟨5, _⟩ => ⟨S10000x128, .f32⟩
  | .local _ .vmem, ⟨6, _⟩ => ⟨S256x128, .f32⟩
  | .local _ .vmem, ⟨7, _⟩ => ⟨S256x128, .f32⟩
  | .local _ .vmem, ⟨8, _⟩ => ⟨S256x64, .f32⟩
  | .local _ .vmem, ⟨9, _⟩ => ⟨S256x64, .f32⟩
  | .local _ .vmem, ⟨10, _⟩ => ⟨S1000x64, .f32⟩
  | .local _ .vmem, ⟨11, _⟩ => ⟨S1000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x128_S128x128_1_0 : S128x128.Transposes [1, 0] S128x128
  concatenates_S128x128_S128x128_S256x128_d0 : Shape.Concatenates [S128x128, S128x128] S256x128 0
  transposes_S64x128_S128x64_1_0 : S64x128.Transposes [1, 0] S128x64
  concatenates_S128x64_S128x64_S256x64_d0 : Shape.Concatenates [S128x64, S128x64] S256x64 0
  inb_S1000x128_S1000x128_0_0 : ∀ a, (![0, 0] : Fin 2 → Nat) a + S1000x128.size a ≤ S1000x128.size a
  h_S1000x128 : 0 < S1000x128.numel
  inb_S5000x128_S5000x128_0_0 : ∀ a, (![0, 0] : Fin 2 → Nat) a + S5000x128.size a ≤ S5000x128.size a
  h_S5000x128 : 0 < S5000x128.numel
  inb_S10000x128_S10000x128_0_0 : ∀ a, (![0, 0] : Fin 2 → Nat) a + S10000x128.size a ≤ S10000x128.size a
  h_S10000x128 : 0 < S10000x128.numel
  shapeCasts_S5000x128_S1000x5x128 : S5000x128.ShapeCasts S1000x5x128
  reduces_S1000x5x128_S1000x128 : S1000x5x128.Reduces [1] S1000x128
  shapeCasts_S10000x128_S5000x2x128 : S10000x128.ShapeCasts S5000x2x128
  reduces_S5000x2x128_S5000x128 : S5000x2x128.Reduces [1] S5000x128
  concatenates_S1000x128_S5000x128_S6000x128_d0 : Shape.Concatenates [S1000x128, S5000x128] S6000x128 0
  concatenates_S6000x128_S6000x128_S6000x256_d1 : Shape.Concatenates [S6000x128, S6000x128] S6000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  natLt_1_32 : 1 < 32
  slices_S6000x128_o0_0_S1000x128 : S6000x128.Slices ![0, 0] S1000x128
  slices_S6000x128_o1000_0_S5000x128 : S6000x128.Slices ![1000, 0] S5000x128
  concatenates_S1000x128_S1000x128_S1000x256_d1 : Shape.Concatenates [S1000x128, S1000x128] S1000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1000x64_S1000x64_0_0 : ∀ a, (![0, 0] : Fin 2 → Nat) a + S1000x64.size a ≤ S1000x64.size a
  h_S1000x64 : 0 < S1000x64.numel
  dot_S6000x256_S256x128_S6000x128_1_0_0_1_n_n_wf : DotDims.WF S6000x256 S256x128 S6000x128 [1] [0] [0] [1] [] []
  dot_S1000x256_S256x64_S1000x64_1_0_0_1_n_n_wf : DotDims.WF S1000x256 S256x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S1000000x128.size a
  hwx0_2 : ∀ i : grid0.Coords, EltTy.bits .f32 = 32 ∨ (Rect.block (s := S1000000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .f32 = 32 ∨ (Rect.block (s := S256x64) S256x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x64.size a ≤ S100000x64.size a
  hwx0_7 : ∀ i : grid0.Coords, EltTy.bits .f32 = 32 ∨ (Rect.block (s := S100000x64) S1000x64.size (cc0_transform_7 i) (hinb0_7 i)).WholeWords (EltTy.packing .f32)

variable [Facts₀]

def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000x128 : Shape := ⟨2, ![500000, 128]⟩
abbrev S1000000x128 : Shape := ⟨2, ![1000000, 128]⟩
abbrev S128x128 : Shape := ⟨2, ![128, 128]⟩
abbrev S64x128 : Shape := ⟨2, ![64, 128]⟩
abbrev S600000x128 : Shape := ⟨2, ![600000, 128]⟩
abbrev S100000x5x128 : Shape := ⟨3, ![100000, 5, 128]⟩
abbrev S_ : Shape := ⟨0, ![]⟩
abbrev S500000x2x128 : Shape := ⟨3, ![500000, 2, 128]⟩
abbrev S128x64 : Shape := ⟨2, ![128, 64]⟩
abbrev S100000x64 : Shape := ⟨2, ![100000, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x128, .f32⟩
  | .hbm, ⟨2, _⟩ => ⟨S1000000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S64x128, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S600000x128, .f32⟩
  | .hbm, ⟨12, _⟩ => ⟨S100000x5x128, .f32⟩
  | .hbm, ⟨13, _⟩ => ⟨S_, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S500000x2x128, .f32⟩
  | .hbm, ⟨19, _⟩ => ⟨S_, .f32⟩
  | .hbm, ⟨20, _⟩ => ⟨S500000x128, .f32⟩
  | .hbm, ⟨21, _⟩ => ⟨S_, .f32⟩
  | .hbm, ⟨22, _⟩ => ⟨S500000x128, .f32⟩
  | .hbm, ⟨23, _⟩ => ⟨S500000x128, .f32⟩
  | .hbm, ⟨24, _⟩ => ⟨S600000x128, .f32⟩
  | .hbm, ⟨25, _⟩ => ⟨S128x128, .f32⟩
  | .hbm, ⟨26, _⟩ => ⟨S600000x128, .f32⟩
  | .hbm, ⟨27, _⟩ => ⟨S128x128, .f32⟩
  | .hbm, ⟨28, _⟩ => ⟨S600000x128, .f32⟩
  | .hbm, ⟨29, _⟩ => ⟨S600000x128, .f32⟩
  | .hbm, ⟨30, _⟩ => ⟨S128x128, .f32⟩
  | .hbm, ⟨31, _⟩ => ⟨S600000x128, .f32⟩
  | .hbm, ⟨32, _⟩ => ⟨S128x128, .f32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S600000x128, .f32⟩
  | .hbm, ⟨45, _⟩ => ⟨S600000x128, .i1⟩
  | .hbm, ⟨46, _⟩ => ⟨S600000x128, .f32⟩
  | .hbm, ⟨47, _⟩ => ⟨S600000x128, .f32⟩
  | .hbm, ⟨48, _⟩ => ⟨S100000x128, .f32⟩
  | .hbm, ⟨49, _⟩ => ⟨S500000x128, .f32⟩
  | .hbm, ⟨50, _⟩ => ⟨S100000x5x128, .f32⟩
  | .hbm, ⟨51, _⟩ => ⟨S_, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S128x64, .f32⟩
  | .hbm, ⟨57, _⟩ => ⟨S100000x64, .f32⟩
  | .hbm, ⟨58, _⟩ => ⟨S128x64, .f32⟩
  | .hbm, ⟨59, _⟩ => ⟨S100000x64, .f32⟩
  | .hbm, ⟨60, _⟩ => ⟨S100000x64, .f32⟩
  | .hbm, ⟨61, _⟩ => ⟨S128x64, .f32⟩
  | .hbm, ⟨62, _⟩ => ⟨S100000x64, .f32⟩
  | .hbm, ⟨63, _⟩ => ⟨S128x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .i1⟩
  | .hbm, ⟨77, _⟩ => ⟨S100000x64, .f32⟩
  | .hbm, ⟨78, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  concatenates_S100000x128_S500000x128_S600000x128_d0 : Shape.Concatenates [S100000x128, S500000x128] S600000x128 0
  shapeCasts_S500000x128_S100000x5x128 : S500000x128.ShapeCasts S100000x5x128
  reducesTo_S100000x5x128_S100000x128_d1 : S100000x5x128.ReducesTo [1] S100000x128
  h_S_ : 0 < S_.numel
  bcast_S_S100000x128 : S_.BroadcastsInDim S100000x128 (![] : Fin 0 → Fin S100000x128.rank)
  shapeCasts_S1000000x128_S500000x2x128 : S1000000x128.ShapeCasts S500000x2x128
  reducesTo_S500000x2x128_S500000x128_d1 : S500000x2x128.ReducesTo [1] S500000x128
  bcast_S_S500000x128 : S_.BroadcastsInDim S500000x128 (![] : Fin 0 → Fin S500000x128.rank)
  transposes_S128x128_S128x128_1_0 : S128x128.Transposes [1, 0] S128x128
  bcast_S_S600000x128 : S_.BroadcastsInDim S600000x128 (![] : Fin 0 → Fin S600000x128.rank)
  slices_S600000x128_S100000x128_0_0 : S600000x128.Slices ![0, 0] S100000x128
  slices_S600000x128_S500000x128_100000_0 : S600000x128.Slices ![100000, 0] S500000x128
  transposes_S64x128_S128x64_1_0 : S64x128.Transposes [1, 0] S128x64
  bcast_S_S100000x64 : S_.BroadcastsInDim S100000x64 (![] : Fin 0 → Fin S100000x64.rank)
  dot_S600000x128_S128x128_S600000x128_1_0_0_1_n_n_wf : DotDims.WF S600000x128 S128x128 S600000x128 [1] [0] [0] [1] [] []
  dot_S100000x128_S128x64_S100000x64_1_0_0_1_n_n_wf : DotDims.WF S100000x128 S128x64 S100000x64 [1] [0] [0] [1] [] []

variable [Facts₀]

def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SpikeGate.lean ====
/-
  The function both programs compute, written once over the extended reals.

  A seed node `n` has one feature row in the first array, five neighbour rows `5n + j` in the second and, under each of
  those, two rows `10n + 2j + i` in the third. One layer takes a node's own row `a` and a neighbour mean `b` and returns,
  per output feature, `sigmoid (a·wₓ + b·wₓ') · [a·wₜ + b·wₜ' ≥ 1]`: a sigmoid gate multiplied by a firing indicator.
  The first layer is applied to the seed (against the mean of its five neighbours) and to each of the five neighbours
  (against the mean of its two); the second layer is applied to the seed's result against the mean of the five
  neighbours' results. Every mean is "sum, then divide by the count", and every product with a weight matrix is a plain
  finite sum, so the only algebra between two spellings of this function is how such sums are grouped.
-/
import Idealize.ShloMosaic.PureOps.Ideal
import Idealize.ShloMosaic.Lib.ValueIdx

noncomputable section

open scoped BigOperators

namespace Cert.TwoHop

open Idealize.ShloMosaic Idealize.ShloMosaic.ValueIdx

/-! ## The firing indicator and the gate -/

/-- The firing indicator: `1` where the value reaches the threshold `1.0`, else `0` (the comparison's bit, read as a number). -/
def fire (v : EReal) : EReal := (((Ideal.cmp .oge v (Ideal.ofBits .f32 0x3F800000#32)).toNat : ℝ) : EReal)

/-- A one-bit word widened to 32 bits and read as a signed integer is the bit itself. -/
theorem toInt_setWidth_bit (b : BitVec 1) : (b.setWidth 32).toInt = (b.toNat : Int) := by
  by_cases h : b = 1#1
  · subst h; decide
  · have h0 := eq_zero_of_ne_one h; subst h0; decide

/-- So the indicator may as well be computed by widening the comparison's bit and converting it as a signed integer. -/
theorem fire_signed (v : EReal) :
    ((((Ideal.cmp .oge v (Ideal.ofBits .f32 0x3F800000#32)).setWidth 32).toInt : ℝ) : EReal) = fire v := by
  unfold fire
  rw [toInt_setWidth_bit]
  simp

/-- A sigmoid gate times a firing indicator. -/
def gate (x v : EReal) : EReal := Ideal.logistic x * fire v

/-! ## Means and linear forms -/

/-- The mean of five values: their sum divided by `5.0`. -/
def mean5 (f : Fin 5 → EReal) : EReal := Ideal.div (∑ j, f j) (Ideal.ofBits .f32 0x40A00000#32)

/-- The mean of two values: their sum divided by `2.0`. -/
def mean2 (f : Fin 2 → EReal) : EReal := Ideal.div (∑ j, f j) (Ideal.ofBits .f32 0x40000000#32)

/-- `a·wa + b·wb` over 128 features each. -/
def lin (a b wa wb : Fin 128 → EReal) : EReal := (∑ k, a k * wa k) + ∑ k, b k * wb k

/-- One output feature of a layer: the gate of the two linear forms. -/
def layer (a b wxa wxb wta wtb : Fin 128 → EReal) : EReal := gate (lin a b wxa wxb) (lin a b wta wtb)

/-- The first layer at output feature `c`; a weight matrix is indexed (output feature, input feature). -/
def hop1 (wl wr wlt wrt : Fin 128 → Fin 128 → EReal) (s nb : Fin 128 → EReal) (c : Fin 128) : EReal :=
  layer s nb (wl c) (wr c) (wlt c) (wrt c)

/-- A seed node's output feature `e`, from its own row `a`, its five neighbours' rows `b j` and their two neighbours'
    rows `d j i`. -/
def node (wl1 wr1 wlt1 wrt1 : Fin 128 → Fin 128 → EReal) (wl2 wr2 wlt2 wrt2 : Fin 64 → Fin 128 → EReal)
    (a : Fin 128 → EReal) (b : Fin 5 → Fin 128 → EReal) (d : Fin 5 → Fin 2 → Fin 128 → EReal) (e : Fin 64) : EReal :=
  layer (hop1 wl1 wr1 wlt1 wrt1 a (fun k => mean5 fun j => b j k))
    (fun c => mean5 fun j => hop1 wl1 wr1 wlt1 wrt1 (b j) (fun k => mean2 fun i => d j i k) c)
    (wl2 e) (wr2 e) (wlt2 e) (wrt2 e)

/-! ## A sum over 256 as two sums over 128 -/

/-- The first half of `Fin 256`. -/
def lo (k : Fin 128) : Fin 256 := ⟨k.val, by have := k.isLt; omega⟩
/-- The second half of `Fin 256`. -/
def hi (k : Fin 128) : Fin 256 := ⟨128 + k.val, by have := k.isLt; omega⟩

/-- A sum over 256 terms is the sum over the first 128 plus the sum over the last 128 (associativity and commutativity
    of addition only: no finiteness is needed on the extended reals). -/
theorem sum_halves {M : Type} [AddCommMonoid M] (f : Fin 256 → M) :
    ∑ k, f k = (∑ k : Fin 128, f (lo k)) + ∑ k : Fin 128, f (hi k) :=
  Fin.sum_univ_add (a := 128) (b := 128) f

/-- A product of a row `[a | b]` with a stacked matrix `[wa ; wb]` is `a·wa + b·wb`. -/
theorem sum_halves_lin (l w : Fin 256 → EReal) :
    ∑ k, l k * w k = lin (fun k => l (lo k)) (fun k => l (hi k)) (fun k => w (lo k)) (fun k => w (hi k)) :=
  sum_halves fun k => l k * w k

/-! ## The whole arrays -/

/-- Neighbour `j` of seed `n`: row `5n + j` of the second array. -/
def row5 (n : Fin 100000) (j : Fin 5) : Fin 500000 := ⟨5 * n.val + j.val, by have := n.isLt; have := j.isLt; omega⟩
/-- Neighbour `i` of neighbour `j` of seed `n`: row `10n + 2j + i` of the third array. -/
def row10 (n : Fin 100000) (j : Fin 5) (i : Fin 2) : Fin 1000000 :=
  ⟨10 * n.val + 2 * j.val + i.val, by have := n.isLt; have := j.isLt; have := i.isLt; omega⟩

/-- The result array as one function of the eleven argument arrays, index by index. -/
def G (x0 : (⟨2, ![100000, 128]⟩ : Shape).Idx → EReal) (x1 : (⟨2, ![500000, 128]⟩ : Shape).Idx → EReal)
    (x2 : (⟨2, ![1000000, 128]⟩ : Shape).Idx → EReal) (x3 x4 x5 x6 : (⟨2, ![128, 128]⟩ : Shape).Idx → EReal)
    (x7 x8 x9 x10 : (⟨2, ![64, 128]⟩ : Shape).Idx → EReal) : (⟨2, ![100000, 64]⟩ : Shape).Idx → EReal :=
  fun i => node (fun c k => x3 (ix2 c k)) (fun c k => x4 (ix2 c k)) (fun c k => x5 (ix2 c k)) (fun c k => x6 (ix2 c k))
    (fun c k => x7 (ix2 c k)) (fun c k => x8 (ix2 c k)) (fun c k => x9 (ix2 c k)) (fun c k => x10 (ix2 c k))
    (fun k => x0 (ix2 (i 0) k)) (fun j k => x1 (ix2 (row5 (i 0) j) k)) (fun j i' k => x2 (ix2 (row10 (i 0) j i') k)) (i 1)

end Cert.TwoHop

end
-- ==== Proof.BlockOps.lean ====
/-
  The kernel body's operations on one block, each read at an index.

  A block holds 1000 seed rows, their 5000 neighbour rows and the 10000 rows under those. The body stacks the 1000 and
  the 5000 rows into 6000 rows, puts the matching neighbour means beside them (256 columns), applies the first gated
  layer to all 6000 rows at once, cuts the result back into its first 1000 and last 5000 rows, averages the latter five
  at a time, and applies the second gated layer to the 1000 rows. Each definition below is one of those steps, spelt as
  the body spells it, with a lemma that reads it at one entry: a stacking by which piece the row falls in, a mean as the
  sum of the rows `5p + j` (or `2s + i`) divided by the count, a matrix product as the sum over its 256 contracted
  positions.
-/
import proofs.«158179_j26465588478206_2_alg».proof.Proof.Gen.KernelIdeal
import proofs.«158179_j26465588478206_2_alg».proof.Proof.SpikeGate
import Idealize.ShloMosaic.Lib.Pipeline.Value
import Idealize.ShloMosaic.Lib.ValueIdx
import Idealize.ShloMosaic.PureOps.Ideal.Laws

noncomputable section

open scoped BigOperators

namespace Cert.TwoHop.Blk

open Cert.KernelIdeal Cert.KernelIdeal.Gen Cert.TwoHop
open Idealize.ShloMosaic Idealize.ShloMosaic.ValueIdx

/-! ## Rows of a block -/

/-- Seed row `p` among the 6000 stacked rows. -/
def top (p : Fin 1000) : Fin 6000 := ⟨p.val, by have := p.isLt; omega⟩
/-- Neighbour row `s` among the 6000 stacked rows: after the 1000 seed rows. -/
def rest (s : Fin 5000) : Fin 6000 := ⟨1000 + s.val, by have := s.isLt; omega⟩
/-- Neighbour `j` of seed `p` within the block. -/
def b5 (p : Fin 1000) (j : Fin 5) : Fin 5000 := ⟨5 * p.val + j.val, by have := p.isLt; have := j.isLt; omega⟩
/-- Neighbour `i` of neighbour row `s` within the block. -/
def b2 (s : Fin 5000) (i : Fin 2) : Fin 10000 := ⟨2 * s.val + i.val, by have := s.isLt; have := i.isLt; omega⟩

/-! ## Stacking rows -/

/-- 1000 rows on top of 5000 rows. -/
def stack (a : FVec Ideal S1000x128 .f32) (b : FVec Ideal S5000x128 .f32) : FVec Ideal S6000x128 .f32 :=
  concatenate S6000x128 0 [⟨S1000x128, a⟩, ⟨S5000x128, b⟩] concatenates_S1000x128_S5000x128_S6000x128_d0

theorem stack_top (a : FVec Ideal S1000x128 .f32) (b : FVec Ideal S5000x128 .f32) (p : Fin 1000) (k : Fin 128) :
    stack a b (ix2 (top p) k) = a (ix2 p k) :=
  concatenate_pair_apply_left (0 : Fin 2) a b concatenates_S1000x128_S5000x128_S6000x128_d0 (ix2 (top p) k) rfl (ix2 p k)
    (fun d => match d with | ⟨0, _⟩ => rfl | ⟨1, _⟩ => rfl)

theorem stack_rest (a : FVec Ideal S1000x128 .f32) (b : FVec Ideal S5000x128 .f32) (s : Fin 5000) (k : Fin 128) :
    stack a b (ix2 (rest s) k) = b (ix2 s k) :=
  concatenate_pair_apply_right (0 : Fin 2) a b concatenates_S1000x128_S5000x128_S6000x128_d0 (ix2 (rest s) k) rfl rfl (ix2 s k)
    (fun d hd => match d, hd with | ⟨0, _⟩, hd => (hd rfl).elim | ⟨1, _⟩, _ => rfl)
    (by show s.val + 1000 = 1000 + s.val; omega)

/-! ## Columns side by side -/

/-- Two blocks of 128 columns side by side. -/
def wide6000 (a b : FVec Ideal S6000x128 .f32) : FVec Ideal S6000x256 .f32 :=
  concatenate S6000x256 1 [⟨S6000x128, a⟩, ⟨S6000x128, b⟩] concatenates_S6000x128_S6000x128_S6000x256_d1

theorem wide6000_lo (a b : FVec Ideal S6000x128 .f32) (r : Fin 6000) (k : Fin 128) : wide6000 a b (ix2 r (lo k)) = a (ix2 r k) :=
  concatenate_pair_apply_left (1 : Fin 2) a b concatenates_S6000x128_S6000x128_S6000x256_d1 (ix2 r (lo k)) rfl (ix2 r k)
    (fun d => match d with | ⟨0, _⟩ => rfl | ⟨1, _⟩ => rfl)

theorem wide6000_hi (a b : FVec Ideal S6000x128 .f32) (r : Fin 6000) (k : Fin 128) : wide6000 a b (ix2 r (hi k)) = b (ix2 r k) :=
  concatenate_pair_apply_right (1 : Fin 2) a b concatenates_S6000x128_S6000x128_S6000x256_d1 (ix2 r (hi k)) rfl rfl (ix2 r k)
    (fun d hd => match d, hd with | ⟨0, _⟩, _ => rfl | ⟨1, _⟩, hd => (hd rfl).elim)
    (by show k.val + 128 = 128 + k.val; omega)

/-- Two blocks of 128 columns side by side. -/
def wide1000 (a b : FVec Ideal S1000x128 .f32) : FVec Ideal S1000x256 .f32 :=
  concatenate S1000x256 1 [⟨S1000x128, a⟩, ⟨S1000x128, b⟩] concatenates_S1000x128_S1000x128_S1000x256_d1

theorem wide1000_lo (a b : FVec Ideal S1000x128 .f32) (r : Fin 1000) (k : Fin 128) : wide1000 a b (ix2 r (lo k)) = a (ix2 r k) :=
  concatenate_pair_apply_left (1 : Fin 2) a b concatenates_S1000x128_S1000x128_S1000x256_d1 (ix2 r (lo k)) rfl (ix2 r k)
    (fun d => match d with | ⟨0, _⟩ => rfl | ⟨1, _⟩ => rfl)

theorem wide1000_hi (a b : FVec Ideal S1000x128 .f32) (r : Fin 1000) (k : Fin 128) : wide1000 a b (ix2 r (hi k)) = b (ix2 r k) :=
  concatenate_pair_apply_right (1 : Fin 2) a b concatenates_S1000x128_S1000x128_S1000x256_d1 (ix2 r (hi k)) rfl rfl (ix2 r k)
    (fun d hd => match d, hd with | ⟨0, _⟩, _ => rfl | ⟨1, _⟩, hd => (hd rfl).elim)
    (by show k.val + 128 = 128 + k.val; omega)

/-! ## Cutting the 6000 rows back -/

/-- The first 1000 of 6000 rows. -/
def firstRows (v : FVec Ideal S6000x128 .f32) : FVec Ideal S1000x128 .f32 :=
  extractStridedSlice S1000x128 ![0, 0] v slices_S6000x128_o0_0_S1000x128

theorem firstRows_apply (v : FVec Ideal S6000x128 .f32) (p : Fin 1000) (k : Fin 128) : firstRows v (ix2 p k) = v (ix2 (top p) k) :=
  extractStridedSlice_apply ![0, 0] v slices_S6000x128_o0_0_S1000x128 (ix2 p k) (ix2 (top p) k) (fun a => match a with
    | ⟨0, _⟩ => by show p.val = 0 + p.val; omega
    | ⟨1, _⟩ => by show k.val = 0 + k.val; omega)

/-- The last 5000 of 6000 rows. -/
def lastRows (v : FVec Ideal S6000x128 .f32) : FVec Ideal S5000x128 .f32 :=
  extractStridedSlice S5000x128 ![1000, 0] v slices_S6000x128_o1000_0_S5000x128

theorem lastRows_apply (v : FVec Ideal S6000x128 .f32) (s : Fin 5000) (k : Fin 128) : lastRows v (ix2 s k) = v (ix2 (rest s) k) :=
  extractStridedSlice_apply ![1000, 0] v slices_S6000x128_o1000_0_S5000x128 (ix2 s k) (ix2 (rest s) k) (fun a => match a with
    | ⟨0, _⟩ => by show 1000 + s.val = 1000 + s.val; rfl
    | ⟨1, _⟩ => by show k.val = 0 + k.val; omega)

/-! ## Means of consecutive rows -/

/-- Rows averaged five at a time. -/
def mean5rows (x : FVec Ideal S5000x128 .f32) : FVec Ideal S1000x128 .f32 :=
  divf (multiReduction .add [1] S1000x128 (shapeCast S1000x5x128 x shapeCasts_S5000x128_S1000x5x128) 0x00000000#32
      reduces_S1000x5x128_S1000x128 (.inl rfl) rfl)
    (broadcast S1000x128 (Scalar.ofBits (F := Ideal) .f32 0x40A00000#32))

theorem mean5rows_apply (x : FVec Ideal S5000x128 .f32) (p : Fin 1000) (k : Fin 128) :
    mean5rows x (ix2 p k) = mean5 fun j => x (ix2 (b5 p j) k) := by
  unfold mean5rows mean5
  show Ideal.div (multiReduction .add [1] S1000x128 (shapeCast S1000x5x128 x shapeCasts_S5000x128_S1000x5x128) 0x00000000#32
      reduces_S1000x5x128_S1000x128 (.inl rfl) rfl (ix2 p k)) (Ideal.ofBits .f32 0x40A00000#32) = _
  refine congrArg (fun z => Ideal.div z (Ideal.ofBits .f32 0x40A00000#32)) ?_
  refine (Ideal.multiReduction_add_single (shapeCast S1000x5x128 x shapeCasts_S5000x128_S1000x5x128) 0x00000000#32
    reduces_S1000x5x128_S1000x128 (.inl rfl) rfl (ix2 p k)).trans ?_
  refine Finset.sum_congr rfl fun j _ => ?_
  exact shapeCast_apply x shapeCasts_S5000x128_S1000x5x128 _ (ix2 (b5 p j) k)
    (by rewrite [Shape.rowMajor_val_two, Shape.rowMajor_val_three]
        show (5 * p.val + j.val) * 128 + k.val = (p.val * 5 + j.val) * 128 + k.val
        omega)

/-- Rows averaged two at a time. -/
def mean2rows (x : FVec Ideal S10000x128 .f32) : FVec Ideal S5000x128 .f32 :=
  divf (multiReduction .add [1] S5000x128 (shapeCast S5000x2x128 x shapeCasts_S10000x128_S5000x2x128) 0x00000000#32
      reduces_S5000x2x128_S5000x128 (.inl rfl) rfl)
    (broadcast S5000x128 (Scalar.ofBits (F := Ideal) .f32 0x40000000#32))

theorem mean2rows_apply (x : FVec Ideal S10000x128 .f32) (s : Fin 5000) (k : Fin 128) :
    mean2rows x (ix2 s k) = mean2 fun i => x (ix2 (b2 s i) k) := by
  unfold mean2rows mean2
  show Ideal.div (multiReduction .add [1] S5000x128 (shapeCast S5000x2x128 x shapeCasts_S10000x128_S5000x2x128) 0x00000000#32
      reduces_S5000x2x128_S5000x128 (.inl rfl) rfl (ix2 s k)) (Ideal.ofBits .f32 0x40000000#32) = _
  refine congrArg (fun z => Ideal.div z (Ideal.ofBits .f32 0x40000000#32)) ?_
  refine (Ideal.multiReduction_add_single (shapeCast S5000x2x128 x shapeCasts_S10000x128_S5000x2x128) 0x00000000#32
    reduces_S5000x2x128_S5000x128 (.inl rfl) rfl (ix2 s k)).trans ?_
  refine Finset.sum_congr rfl fun i _ => ?_
  exact shapeCast_apply x shapeCasts_S10000x128_S5000x2x128 _ (ix2 (b2 s i) k)
    (by rewrite [Shape.rowMajor_val_two, Shape.rowMajor_val_three]
        show (2 * s.val + i.val) * 128 + k.val = (s.val * 2 + i.val) * 128 + k.val
        omega)

/-! ## The matrix products -/

theorem mm6000_l0 (i : S6000x128.Idx) (q : dot_S6000x256_S256x128_S6000x128_1_0_0_1_n_n.contr.Idx) : (dot_S6000x256_S256x128_S6000x128_1_0_0_1_n_n.lhsIdx i q 0).val = (i 0).val := by
  unfold DotDims.lhsIdx
  rw [dif_neg (show ¬(0 : Fin S6000x256.rank) ∈ dot_S6000x256_S256x128_S6000x128_1_0_0_1_n_n.lhsBatch by decide), dif_pos (show (0 : Fin S6000x256.rank) ∈ dot_S6000x256_S256x128_S6000x128_1_0_0_1_n_n.lhsNonContracting by decide)]
  rfl
theorem mm6000_l1 (i : S6000x128.Idx) (q : dot_S6000x256_S256x128_S6000x128_1_0_0_1_n_n.contr.Idx) : (dot_S6000x256_S256x128_S6000x128_1_0_0_1_n_n.lhsIdx i q 1).val = (q ⟨0, by decide⟩).val :=
  dot_S6000x256_S256x128_S6000x128_1_0_0_1_n_n.lhsIdx_val_of_single rfl i q
theorem mm6000_r0 (i : S6000x128.Idx) (q : dot_S6000x256_S256x128_S6000x128_1_0_0_1_n_n.contr.Idx) : (dot_S6000x256_S256x128_S6000x128_1_0_0_1_n_n.rhsIdx i q 0).val = (q ⟨0, by decide⟩).val :=
  dot_S6000x256_S256x128_S6000x128_1_0_0_1_n_n.rhsIdx_val_of_single rfl i q
theorem mm6000_r1 (i : S6000x128.Idx) (q : dot_S6000x256_S256x128_S6000x128_1_0_0_1_n_n.contr.Idx) : (dot_S6000x256_S256x128_S6000x128_1_0_0_1_n_n.rhsIdx i q 1).val = (i 1).val := by
  unfold DotDims.rhsIdx
  rw [dif_neg (show ¬(1 : Fin S256x128.rank) ∈ dot_S6000x256_S256x128_S6000x128_1_0_0_1_n_n.rhsBatch by decide), dif_pos (show (1 : Fin S256x128.rank) ∈ dot_S6000x256_S256x128_S6000x128_1_0_0_1_n_n.rhsNonContracting by decide)]
  rfl

/-- A matrix product into a zero accumulator, read at one entry: the sum over the 256 contracted positions of
    row entry times column entry. -/
theorem mm6000_apply (prec : Option ContractPrecision) (l : FVec Ideal S6000x256 .f32) (w : FVec Ideal S256x128 .f32) (r : Fin 6000) (c : Fin 128) :
    matmul dot_S6000x256_S256x128_S6000x128_1_0_0_1_n_n prec l w (constant (F := Ideal) S6000x128 .f32 0x00000000#32) (ix2 r c)
      = ∑ k : Fin 256, l (ix2 r k) * w (ix2 k c) := by
  refine (Ideal.matmul_constant_zero_apply dot_S6000x256_S256x128_S6000x128_1_0_0_1_n_n prec l w (ix2 r c)).trans ?_
  rw [← Equiv.sum_comp (contrEquiv1 dot_S6000x256_S256x128_S6000x128_1_0_0_1_n_n 256 rfl rfl).symm]
  refine Finset.sum_congr rfl fun k _ => ?_
  have hk := contrEquiv1_symm_val dot_S6000x256_S256x128_S6000x128_1_0_0_1_n_n 256 rfl rfl k
  have el : dot_S6000x256_S256x128_S6000x128_1_0_0_1_n_n.lhsIdx (ix2 r c) ((contrEquiv1 dot_S6000x256_S256x128_S6000x128_1_0_0_1_n_n 256 rfl rfl).symm k) = ix2 r k := funext fun a => Fin.ext (by
    match a with
    | ⟨0, _⟩ => exact mm6000_l0 _ _
    | ⟨1, _⟩ => exact (mm6000_l1 _ _).trans hk)
  have er : dot_S6000x256_S256x128_S6000x128_1_0_0_1_n_n.rhsIdx (ix2 r c) ((contrEquiv1 dot_S6000x256_S256x128_S6000x128_1_0_0_1_n_n 256 rfl rfl).symm k) = ix2 k c := funext fun a => Fin.ext (by
    match a with
    | ⟨0, _⟩ => exact (mm6000_r0 _ _).trans hk
    | ⟨1, _⟩ => exact mm6000_r1 _ _)
  rw [el, er]

theorem mm1000_l0 (i : S1000x64.Idx) (q : dot_S1000x256_S256x64_S1000x64_1_0_0_1_n_n.contr.Idx) : (dot_S1000x256_S256x64_S1000x64_1_0_0_1_n_n.lhsIdx i q 0).val = (i 0).val := by
  unfold DotDims.lhsIdx
  rw [dif_neg (show ¬(0 : Fin S1000x256.rank) ∈ dot_S1000x256_S256x64_S1000x64_1_0_0_1_n_n.lhsBatch by decide), dif_pos (show (0 : Fin S1000x256.rank) ∈ dot_S1000x256_S256x64_S1000x64_1_0_0_1_n_n.lhsNonContracting by decide)]
  rfl
theorem mm1000_l1 (i : S1000x64.Idx) (q : dot_S1000x256_S256x64_S1000x64_1_0_0_1_n_n.contr.Idx) : (dot_S1000x256_S256x64_S1000x64_1_0_0_1_n_n.lhsIdx i q 1).val = (q ⟨0, by decide⟩).val :=
  dot_S1000x256_S256x64_S1000x64_1_0_0_1_n_n.lhsIdx_val_of_single rfl i q
theorem mm1000_r0 (i : S1000x64.Idx) (q : dot_S1000x256_S256x64_S1000x64_1_0_0_1_n_n.contr.Idx) : (dot_S1000x256_S256x64_S1000x64_1_0_0_1_n_n.rhsIdx i q 0).val = (q ⟨0, by decide⟩).val :=
  dot_S1000x256_S256x64_S1000x64_1_0_0_1_n_n.rhsIdx_val_of_single rfl i q
theorem mm1000_r1 (i : S1000x64.Idx) (q : dot_S1000x256_S256x64_S1000x64_1_0_0_1_n_n.contr.Idx) : (dot_S1000x256_S256x64_S1000x64_1_0_0_1_n_n.rhsIdx i q 1).val = (i 1).val := by
  unfold DotDims.rhsIdx
  rw [dif_neg (show ¬(1 : Fin S256x64.rank) ∈ dot_S1000x256_S256x64_S1000x64_1_0_0_1_n_n.rhsBatch by decide), dif_pos (show (1 : Fin S256x64.rank) ∈ dot_S1000x256_S256x64_S1000x64_1_0_0_1_n_n.rhsNonContracting by decide)]
  rfl

/-- A matrix product into a zero accumulator, read at one entry: the sum over the 256 contracted positions of
    row entry times column entry. -/
theorem mm1000_apply (prec : Option ContractPrecision) (l : FVec Ideal S1000x256 .f32) (w : FVec Ideal S256x64 .f32) (r : Fin 1000) (c : Fin 64) :
    matmul dot_S1000x256_S256x64_S1000x64_1_0_0_1_n_n prec l w (constant (F := Ideal) S1000x64 .f32 0x00000000#32) (ix2 r c)
      = ∑ k : Fin 256, l (ix2 r k) * w (ix2 k c) := by
  refine (Ideal.matmul_constant_zero_apply dot_S1000x256_S256x64_S1000x64_1_0_0_1_n_n prec l w (ix2 r c)).trans ?_
  rw [← Equiv.sum_comp (contrEquiv1 dot_S1000x256_S256x64_S1000x64_1_0_0_1_n_n 256 rfl rfl).symm]
  refine Finset.sum_congr rfl fun k _ => ?_
  have hk := contrEquiv1_symm_val dot_S1000x256_S256x64_S1000x64_1_0_0_1_n_n 256 rfl rfl k
  have el : dot_S1000x256_S256x64_S1000x64_1_0_0_1_n_n.lhsIdx (ix2 r c) ((contrEquiv1 dot_S1000x256_S256x64_S1000x64_1_0_0_1_n_n 256 rfl rfl).symm k) = ix2 r k := funext fun a => Fin.ext (by
    match a with
    | ⟨0, _⟩ => exact mm1000_l0 _ _
    | ⟨1, _⟩ => exact (mm1000_l1 _ _).trans hk)
  have er : dot_S1000x256_S256x64_S1000x64_1_0_0_1_n_n.rhsIdx (ix2 r c) ((contrEquiv1 dot_S1000x256_S256x64_S1000x64_1_0_0_1_n_n 256 rfl rfl).symm k) = ix2 k c := funext fun a => Fin.ext (by
    match a with
    | ⟨0, _⟩ => exact (mm1000_r0 _ _).trans hk
    | ⟨1, _⟩ => exact mm1000_r1 _ _)
  rw [el, er]

/-! ## The gated layers -/

/-- The gated layer on a block: the sigmoid of one product times the firing indicator of the other. -/
def gated6000 (l : FVec Ideal S6000x256 .f32) (wt wx : FVec Ideal S256x128 .f32) : FVec Ideal S6000x128 .f32 :=
  mulf (logistic (matmul dot_S6000x256_S256x128_S6000x128_1_0_0_1_n_n none l wx (constant (F := Ideal) S6000x128 .f32 0x00000000#32)))
    (sitofp .f32 (extui 32 (cmpf .oge (matmul dot_S6000x256_S256x128_S6000x128_1_0_0_1_n_n (some .fp32) l wt (constant (F := Ideal) S6000x128 .f32 0x00000000#32))
      (broadcast S6000x128 (Scalar.ofBits (F := Ideal) .f32 0x3F800000#32))) natLt_1_32))

theorem gated6000_apply (l : FVec Ideal S6000x256 .f32) (wt wx : FVec Ideal S256x128 .f32) (r : Fin 6000) (c : Fin 128) :
    gated6000 l wt wx (ix2 r c)
      = gate (∑ k : Fin 256, l (ix2 r k) * wx (ix2 k c)) (∑ k : Fin 256, l (ix2 r k) * wt (ix2 k c)) := by
  unfold gated6000 gate
  show Ideal.logistic (matmul dot_S6000x256_S256x128_S6000x128_1_0_0_1_n_n none l wx (constant (F := Ideal) S6000x128 .f32 0x00000000#32) (ix2 r c))
      * ((((Ideal.cmp .oge (matmul dot_S6000x256_S256x128_S6000x128_1_0_0_1_n_n (some .fp32) l wt (constant (F := Ideal) S6000x128 .f32 0x00000000#32) (ix2 r c))
          (Ideal.ofBits .f32 0x3F800000#32)).setWidth 32).toInt : ℝ) : EReal) = _
  rw [mm6000_apply, mm6000_apply, fire_signed]

/-- The gated layer on a block: the sigmoid of one product times the firing indicator of the other. -/
def gated1000 (l : FVec Ideal S1000x256 .f32) (wt wx : FVec Ideal S256x64 .f32) : FVec Ideal S1000x64 .f32 :=
  mulf (logistic (matmul dot_S1000x256_S256x64_S1000x64_1_0_0_1_n_n none l wx (constant (F := Ideal) S1000x64 .f32 0x00000000#32)))
    (sitofp .f32 (extui 32 (cmpf .oge (matmul dot_S1000x256_S256x64_S1000x64_1_0_0_1_n_n (some .fp32) l wt (constant (F := Ideal) S1000x64 .f32 0x00000000#32))
      (broadcast S1000x64 (Scalar.ofBits (F := Ideal) .f32 0x3F800000#32))) natLt_1_32))

theorem gated1000_apply (l : FVec Ideal S1000x256 .f32) (wt wx : FVec Ideal S256x64 .f32) (r : Fin 1000) (c : Fin 64) :
    gated1000 l wt wx (ix2 r c)
      = gate (∑ k : Fin 256, l (ix2 r k) * wx (ix2 k c)) (∑ k : Fin 256, l (ix2 r k) * wt (ix2 k c)) := by
  unfold gated1000 gate
  show Ideal.logistic (matmul dot_S1000x256_S256x64_S1000x64_1_0_0_1_n_n none l wx (constant (F := Ideal) S1000x64 .f32 0x00000000#32) (ix2 r c))
      * ((((Ideal.cmp .oge (matmul dot_S1000x256_S256x64_S1000x64_1_0_0_1_n_n (some .fp32) l wt (constant (F := Ideal) S1000x64 .f32 0x00000000#32) (ix2 r c))
          (Ideal.ofBits .f32 0x3F800000#32)).setWidth 32).toInt : ℝ) : EReal) = _
  rw [mm1000_apply, mm1000_apply, fire_signed]

end Cert.TwoHop.Blk

end
-- ==== Proof.KernelNode.lean ====
/-
  The kernel body's result on one block, read at one entry, is the per-node function.

  The body's single store writes, for seed row `p` of the block and output feature `q`, the second gated layer of
  (the first layer's row `p`, the mean of the first layer's five neighbour rows `1000 + 5p + j`). The first layer's row
  `p` is the gated layer of (seed row `p`, the mean of neighbour rows `5p + j`); its row `1000 + s` is the gated layer
  of (neighbour row `s`, the mean of rows `2s + i` of the third block). Each product is against a stacked weight matrix
  of 256 rows, so it splits into the product of the row's own half with the upper 128 rows plus the product of the
  mean's half with the lower 128 rows.
-/
import proofs.«158179_j26465588478206_2_alg».proof.Proof.Gen.KernelIdeal.Skeleton
import proofs.«158179_j26465588478206_2_alg».proof.Proof.BlockOps

noncomputable section

open scoped BigOperators

namespace Cert.TwoHop.Blk

open Cert.KernelIdeal Cert.KernelIdeal.Gen Cert.TwoHop
open Idealize.ShloMosaic Idealize.ShloMosaic.ValueIdx

/-- The first gated layer on all 6000 stacked rows of a block. -/
def firstLayer (x0 : FVec Ideal S1000x128 .f32) (x1 : FVec Ideal S5000x128 .f32) (x2 : FVec Ideal S10000x128 .f32)
    (wt wx : FVec Ideal S256x128 .f32) : FVec Ideal S6000x128 .f32 :=
  gated6000 (wide6000 (stack x0 x1) (stack (mean5rows x1) (mean2rows x2))) wt wx

/-- The body's stored value is the second gated layer over the first, step by step as the body spells it (the four
    shape casts of a weight block to its own shape are the identity). -/
theorem pay_eq (x0 : Vec Ideal S1000x128 .f32) (x1 : Vec Ideal S5000x128 .f32) (x2 : Vec Ideal S10000x128 .f32)
    (x3 x4 : Vec Ideal S256x128 .f32) (x5 x6 : Vec Ideal S256x64 .f32) :
    k0_pay1 (k0_pay2 x0 x1 x2 x3 x4) (k0_pay3 x5) x6
      = gated1000 (wide1000 (firstRows (firstLayer x0 x1 x2 x3 x4)) (mean5rows (lastRows (firstLayer x0 x1 x2 x3 x4)))) x5 x6 := by
  have e : k0_pay1 (k0_pay2 x0 x1 x2 x3 x4) (k0_pay3 x5) x6
      = gated1000 (wide1000
          (firstRows (firstLayer x0 x1 x2 (shapeCast S256x128 x3 shapeCasts_S256x128_S256x128) (shapeCast S256x128 x4 shapeCasts_S256x128_S256x128)))
          (mean5rows (lastRows (firstLayer x0 x1 x2 (shapeCast S256x128 x3 shapeCasts_S256x128_S256x128) (shapeCast S256x128 x4 shapeCasts_S256x128_S256x128)))))
        (shapeCast S256x64 x5 shapeCasts_S256x64_S256x64) (shapeCast S256x64 x6 shapeCasts_S256x64_S256x64) := rfl
  rw [e, shapeCast_self x3, shapeCast_self x4, shapeCast_self x5, shapeCast_self x6]

/-- The first layer at a seed row: the seed's own row against the mean of its five neighbours. -/
theorem firstLayer_top (x0 : FVec Ideal S1000x128 .f32) (x1 : FVec Ideal S5000x128 .f32) (x2 : FVec Ideal S10000x128 .f32)
    (wt wx : FVec Ideal S256x128 .f32) (p : Fin 1000) (c : Fin 128) :
    firstLayer x0 x1 x2 wt wx (ix2 (top p) c)
      = hop1 (fun c k => wx (ix2 (lo k) c)) (fun c k => wx (ix2 (hi k) c)) (fun c k => wt (ix2 (lo k) c)) (fun c k => wt (ix2 (hi k) c))
          (fun k => x0 (ix2 p k)) (fun k => mean5 fun j => x1 (ix2 (b5 p j) k)) c := by
  unfold firstLayer hop1 layer
  rw [gated6000_apply, sum_halves_lin, sum_halves_lin]
  simp only [wide6000_lo, wide6000_hi, stack_top, mean5rows_apply]

/-- The first layer at a neighbour row: the neighbour's own row against the mean of its two neighbours. -/
theorem firstLayer_rest (x0 : FVec Ideal S1000x128 .f32) (x1 : FVec Ideal S5000x128 .f32) (x2 : FVec Ideal S10000x128 .f32)
    (wt wx : FVec Ideal S256x128 .f32) (s : Fin 5000) (c : Fin 128) :
    firstLayer x0 x1 x2 wt wx (ix2 (rest s) c)
      = hop1 (fun c k => wx (ix2 (lo k) c)) (fun c k => wx (ix2 (hi k) c)) (fun c k => wt (ix2 (lo k) c)) (fun c k => wt (ix2 (hi k) c))
          (fun k => x1 (ix2 s k)) (fun k => mean2 fun i => x2 (ix2 (b2 s i) k)) c := by
  unfold firstLayer hop1 layer
  rw [gated6000_apply, sum_halves_lin, sum_halves_lin]
  simp only [wide6000_lo, wide6000_hi, stack_rest, mean2rows_apply]

/-- The body's stored value at seed row `p` and output feature `q` is the per-node function of the block's rows. -/
theorem pay_apply (x0 : Vec Ideal S1000x128 .f32) (x1 : Vec Ideal S5000x128 .f32) (x2 : Vec Ideal S10000x128 .f32)
    (x3 x4 : Vec Ideal S256x128 .f32) (x5 x6 : Vec Ideal S256x64 .f32) (p : Fin 1000) (q : Fin 64) :
    k0_pay1 (k0_pay2 x0 x1 x2 x3 x4) (k0_pay3 x5) x6 (ix2 p q)
      = node (fun c k => x4 (ix2 (lo k) c)) (fun c k => x4 (ix2 (hi k) c)) (fun c k => x3 (ix2 (lo k) c)) (fun c k => x3 (ix2 (hi k) c))
          (fun e k => x6 (ix2 (lo k) e)) (fun e k => x6 (ix2 (hi k) e)) (fun e k => x5 (ix2 (lo k) e)) (fun e k => x5 (ix2 (hi k) e))
          (fun k => x0 (ix2 p k)) (fun j k => x1 (ix2 (b5 p j) k)) (fun j i k => x2 (ix2 (b2 (b5 p j) i) k)) q := by
  rw [pay_eq, gated1000_apply, sum_halves_lin, sum_halves_lin]
  unfold node layer
  simp only [wide1000_lo, wide1000_hi, firstRows_apply, mean5rows_apply, lastRows_apply, firstLayer_top, firstLayer_rest]

end Cert.TwoHop.Blk

end
-- ==== Proof.Weights.lean ====
/-
  The stacked weight matrices, read at an entry.

  Before the kernel runs, each pair of weight matrices (one for a node's own row, one for its neighbour mean) is
  transposed and the two transposes are stacked, the first on top: row `k` of the upper half holds column `k` of the
  first matrix, row `k` of the lower half column `k` of the second. So entry (upper row `k`, column `c`) of the stack
  is entry `(c, k)` of the first matrix, and entry (lower row `k`, column `c`) is entry `(c, k)` of the second.
-/
import proofs.«158179_j26465588478206_2_alg».proof.Proof.Gen.KernelIdeal
import proofs.«158179_j26465588478206_2_alg».proof.Proof.SpikeGate
import Idealize.ShloMosaic.Lib.Pipeline.Value
import Idealize.ShloMosaic.Lib.ValueIdx

noncomputable section

namespace Cert.TwoHop.Blk

open Cert.KernelIdeal Cert.KernelIdeal.Gen Cert.TwoHop
open Idealize.ShloMosaic Idealize.ShloMosaic.ValueIdx

/-- Two 128×128 matrices transposed and stacked. -/
def stackT128 (a b : FVec Ideal S128x128 .f32) : FVec Ideal S256x128 .f32 :=
  concatenate S256x128 0 [⟨S128x128, transpose S128x128 [1, 0] a transposes_S128x128_S128x128_1_0⟩,
    ⟨S128x128, transpose S128x128 [1, 0] b transposes_S128x128_S128x128_1_0⟩] concatenates_S128x128_S128x128_S256x128_d0

theorem stackT128_lo (a b : FVec Ideal S128x128 .f32) (k c : Fin 128) : stackT128 a b (ix2 (lo k) c) = a (ix2 c k) :=
  (concatenate_pair_apply_left (0 : Fin 2) (transpose S128x128 [1, 0] a transposes_S128x128_S128x128_1_0)
      (transpose S128x128 [1, 0] b transposes_S128x128_S128x128_1_0) concatenates_S128x128_S128x128_S256x128_d0 (ix2 (lo k) c) rfl (ix2 k c)
      (fun d => match d with | ⟨0, _⟩ => rfl | ⟨1, _⟩ => rfl)).trans
    (transpose_apply [1, 0] a transposes_S128x128_S128x128_1_0 (ix2 k c) (ix2 c k)
      (fun d => match d with | ⟨0, _⟩ => rfl | ⟨1, _⟩ => rfl))

theorem stackT128_hi (a b : FVec Ideal S128x128 .f32) (k c : Fin 128) : stackT128 a b (ix2 (hi k) c) = b (ix2 c k) :=
  (concatenate_pair_apply_right (0 : Fin 2) (transpose S128x128 [1, 0] a transposes_S128x128_S128x128_1_0)
      (transpose S128x128 [1, 0] b transposes_S128x128_S128x128_1_0) concatenates_S128x128_S128x128_S256x128_d0 (ix2 (hi k) c) rfl rfl (ix2 k c)
      (fun d hd => match d, hd with | ⟨0, _⟩, hd => (hd rfl).elim | ⟨1, _⟩, _ => rfl)
      (by show k.val + 128 = 128 + k.val; omega)).trans
    (transpose_apply [1, 0] b transposes_S128x128_S128x128_1_0 (ix2 k c) (ix2 c k)
      (fun d => match d with | ⟨0, _⟩ => rfl | ⟨1, _⟩ => rfl))

/-- Two 64×128 matrices transposed and stacked. -/
def stackT64 (a b : FVec Ideal S64x128 .f32) : FVec Ideal S256x64 .f32 :=
  concatenate S256x64 0 [⟨S128x64, transpose S128x64 [1, 0] a transposes_S64x128_S128x64_1_0⟩,
    ⟨S128x64, transpose S128x64 [1, 0] b transposes_S64x128_S128x64_1_0⟩] concatenates_S128x64_S128x64_S256x64_d0

theorem stackT64_lo (a b : FVec Ideal S64x128 .f32) (k : Fin 128) (e : Fin 64) : stackT64 a b (ix2 (lo k) e) = a (ix2 e k) :=
  (concatenate_pair_apply_left (0 : Fin 2) (transpose S128x64 [1, 0] a transposes_S64x128_S128x64_1_0)
      (transpose S128x64 [1, 0] b transposes_S64x128_S128x64_1_0) concatenates_S128x64_S128x64_S256x64_d0 (ix2 (lo k) e) rfl (ix2 k e)
      (fun d => match d with | ⟨0, _⟩ => rfl | ⟨1, _⟩ => rfl)).trans
    (transpose_apply [1, 0] a transposes_S64x128_S128x64_1_0 (ix2 k e) (ix2 e k)
      (fun d => match d with | ⟨0, _⟩ => rfl | ⟨1, _⟩ => rfl))

theorem stackT64_hi (a b : FVec Ideal S64x128 .f32) (k : Fin 128) (e : Fin 64) : stackT64 a b (ix2 (hi k) e) = b (ix2 e k) :=
  (concatenate_pair_apply_right (0 : Fin 2) (transpose S128x64 [1, 0] a transposes_S64x128_S128x64_1_0)
      (transpose S128x64 [1, 0] b transposes_S64x128_S128x64_1_0) concatenates_S128x64_S128x64_S256x64_d0 (ix2 (hi k) e) rfl rfl (ix2 k e)
      (fun d hd => match d, hd with | ⟨0, _⟩, hd => (hd rfl).elim | ⟨1, _⟩, _ => rfl)
      (by show k.val + 128 = 128 + k.val; omega)).trans
    (transpose_apply [1, 0] b transposes_S64x128_S128x64_1_0 (ix2 k e) (ix2 e k)
      (fun d => match d with | ⟨0, _⟩ => rfl | ⟨1, _⟩ => rfl))

end Cert.TwoHop.Blk

end
-- ==== Proof.BlockEntry.lean ====
/-
  One entry of a block's result is the whole-array function at the matching global row.

  Block `T` (of 100) holds seed rows `1000T + p`, neighbour rows `5000T + s` and second-neighbour rows `10000T + u`.
  Neighbour `j` of the block's seed `p` is block row `5p + j`, that is global row `5000T + 5p + j = 5(1000T + p) + j`:
  neighbour `j` of global seed `1000T + p`. Likewise `10000T + 2(5p + j) + i = 10(1000T + p) + 2j + i`. With the
  stacked weights read back as the original matrices, the per-node function of the block's rows is the per-node function
  of the arrays' rows.
-/
import proofs.«158179_j26465588478206_2_alg».proof.Proof.KernelNode
import proofs.«158179_j26465588478206_2_alg».proof.Proof.Weights

noncomputable section

open scoped BigOperators

namespace Cert.TwoHop.Blk

open Cert.KernelIdeal Cert.KernelIdeal.Gen Cert.TwoHop
open Idealize.ShloMosaic Idealize.ShloMosaic.ValueIdx

/-- Global seed row of block `T`'s row `p`. -/
def g0 (T : Nat) (hT : T < 100) (p : Fin 1000) : Fin 100000 := ⟨1000 * T + p.val, by have := p.isLt; omega⟩
/-- Global neighbour row of block `T`'s row `s`. -/
def g1 (T : Nat) (hT : T < 100) (s : Fin 5000) : Fin 500000 := ⟨5000 * T + s.val, by have := s.isLt; omega⟩
/-- Global second-neighbour row of block `T`'s row `u`. -/
def g2 (T : Nat) (hT : T < 100) (u : Fin 10000) : Fin 1000000 := ⟨10000 * T + u.val, by have := u.isLt; omega⟩

theorem row5_g0 (T : Nat) (hT : T < 100) (p : Fin 1000) (j : Fin 5) : row5 (g0 T hT p) j = g1 T hT (b5 p j) :=
  Fin.ext (by show 5 * (1000 * T + p.val) + j.val = 5000 * T + (5 * p.val + j.val); omega)

theorem row10_g0 (T : Nat) (hT : T < 100) (p : Fin 1000) (j : Fin 5) (i : Fin 2) :
    row10 (g0 T hT p) j i = g2 T hT (b2 (b5 p j) i) :=
  Fin.ext (by show 10 * (1000 * T + p.val) + 2 * j.val + i.val = 10000 * T + (2 * (5 * p.val + j.val) + i.val); omega)

/-- The whole-array function at row `n`, feature `e`, unfolded once. -/
theorem G_apply (X0 : FVec Ideal S100000x128 .f32) (X1 : FVec Ideal S500000x128 .f32) (X2 : FVec Ideal S1000000x128 .f32)
    (X3 X4 X5 X6 : FVec Ideal S128x128 .f32) (X7 X8 X9 X10 : FVec Ideal S64x128 .f32) (n : Fin 100000) (e : Fin 64) :
    G X0 X1 X2 X3 X4 X5 X6 X7 X8 X9 X10 (ix2 n e)
      = node (fun c k => X3 (ix2 c k)) (fun c k => X4 (ix2 c k)) (fun c k => X5 (ix2 c k)) (fun c k => X6 (ix2 c k))
          (fun c k => X7 (ix2 c k)) (fun c k => X8 (ix2 c k)) (fun c k => X9 (ix2 c k)) (fun c k => X10 (ix2 c k))
          (fun k => X0 (ix2 n k)) (fun j k => X1 (ix2 (row5 n j) k)) (fun j i k => X2 (ix2 (row10 n j i) k)) e := rfl

/-- If a block's seven inputs are the matching rows of the arrays and the stacked weights, its result at `(p, q)` is the
    whole-array function at `(1000T + p, q)`. -/
theorem entry_of (X0 : FVec Ideal S100000x128 .f32) (X1 : FVec Ideal S500000x128 .f32) (X2 : FVec Ideal S1000000x128 .f32)
    (X3 X4 X5 X6 : FVec Ideal S128x128 .f32) (X7 X8 X9 X10 : FVec Ideal S64x128 .f32) (T : Nat) (hT : T < 100)
    (x0 : Vec Ideal S1000x128 .f32) (x1 : Vec Ideal S5000x128 .f32) (x2 : Vec Ideal S10000x128 .f32)
    (x3 x4 : Vec Ideal S256x128 .f32) (x5 x6 : Vec Ideal S256x64 .f32)
    (h0 : ∀ (p : Fin 1000) (k : Fin 128), x0 (ix2 p k) = X0 (ix2 (g0 T hT p) k))
    (h1 : ∀ (s : Fin 5000) (k : Fin 128), x1 (ix2 s k) = X1 (ix2 (g1 T hT s) k))
    (h2 : ∀ (u : Fin 10000) (k : Fin 128), x2 (ix2 u k) = X2 (ix2 (g2 T hT u) k))
    (h3 : x3 = stackT128 X5 X6) (h4 : x4 = stackT128 X3 X4) (h5 : x5 = stackT64 X9 X10) (h6 : x6 = stackT64 X7 X8)
    (p : Fin 1000) (q : Fin 64) :
    k0_pay1 (k0_pay2 x0 x1 x2 x3 x4) (k0_pay3 x5) x6 (ix2 p q) = G X0 X1 X2 X3 X4 X5 X6 X7 X8 X9 X10 (ix2 (g0 T hT p) q) := by
  subst h3 h4 h5 h6
  rw [pay_apply, G_apply]
  simp only [stackT128_lo, stackT128_hi, stackT64_lo, stackT64_hi, h0, h1, h2, row5_g0, row10_g0]

end Cert.TwoHop.Blk

end
-- ==== Proof.Arrays.lean ====
/-
  From blocks to the whole result array, and the kernel's run.

  The grid has 100 points. At point `t` the three data windows hold rows `1000t + p`, `5000t + s` and `10000t + u` of
  the three feature arrays, the four weight windows hold the whole stacked weight matrices (computed from the eight
  weight arguments before the kernel starts), and the output window's block is rows `1000t + p` of the result. So what
  point `t` writes back is block `t` of the one whole-array function, the 100 blocks cover the result's 100000 rows
  (row `r` lies in block `r / 1000`), and after the run the result array is that function of the arguments.
-/
import proofs.«158179_j26465588478206_2_alg».proof.Proof.Gen.KernelIdeal.Value
import proofs.«158179_j26465588478206_2_alg».proof.Proof.BlockEntry
import Idealize.ShloMosaic.Lib.StableHlo.Run
import Idealize.ShloMosaic.Lib.Pipeline.Value

noncomputable section

namespace Cert.TwoHop.Arr

open Cert.KernelIdeal Cert.KernelIdeal.Gen Cert.KernelIdeal.Value Cert.TwoHop Cert.TwoHop.Blk
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as the whole-array function of the eleven arguments in memory. -/
abbrev Gm (c : Dev nD) : S100000x64.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## The stacked weights when the kernel starts -/

theorem V_v2 (c : Dev nD) : (V m c main_v2 : S256x128.Idx → EReal)
    = stackT128 (m ((c : Thread nD τ).loc main_arg5)) (m ((c : Thread nD τ).loc main_arg6)) := by
  dsimp only [Gen.V, Gen.hostOps0]
  after_results
  rfl

theorem V_v5 (c : Dev nD) : (V m c main_v5 : S256x128.Idx → EReal)
    = stackT128 (m ((c : Thread nD τ).loc main_arg3)) (m ((c : Thread nD τ).loc main_arg4)) := by
  dsimp only [Gen.V, Gen.hostOps0]
  after_results
  rfl

theorem V_v8 (c : Dev nD) : (V m c main_v8 : S256x64.Idx → EReal)
    = stackT64 (m ((c : Thread nD τ).loc main_arg9)) (m ((c : Thread nD τ).loc main_arg10)) := by
  dsimp only [Gen.V, Gen.hostOps0]
  after_results
  rfl

theorem V_v11 (c : Dev nD) : (V m c main_v11 : S256x64.Idx → EReal)
    = stackT64 (m ((c : Thread nD τ).loc main_arg7)) (m ((c : Thread nD τ).loc main_arg8)) := by
  dsimp only [Gen.V, Gen.hostOps0]
  after_results
  rfl

/-! ## The windows' blocks -/

/-- Each window's block index at point `t`: `(t, 0)` for the three data windows and the output, `(0, 0)` for the weights
    (decided over the 100 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem tN (t : Fin cfg0.N) : t.val < 100 := lt_of_lt_of_eq t.isLt N_0

/-- Window 0's block at point `t` is rows `1000·t + p` of its array. -/
theorem blk0_apply (c : Dev nD) (t : Fin cfg0.N) (p : Fin 1000) (k : Fin 128) :
    (iblk m c 0 t : Vec Ideal S1000x128 .f32) (ix2 p k)
      = (m ((c : Thread nD τ).loc main_arg0) : S100000x128.Idx → EReal) (ix2 (g0 t.val (tN t) p) k) := by
  have e := idx_facts t
  unfold iblk
  rw [View.read_apply]
  show V m c main_arg0 _ = _
  rw [V_main_arg0]
  refine congrArg (m ((c : Thread nD τ).loc main_arg0) : S100000x128.Idx → EReal) (funext fun a => Fin.ext ?_)
  match a with
  | ⟨0, _⟩ => show win0_0.index t (0 : Fin 2) * 1000 + 1 * p.val = 1000 * t.val + p.val; omega
  | ⟨1, _⟩ => show win0_0.index t (1 : Fin 2) * 128 + 1 * k.val = k.val; omega

/-- Window 1's block at point `t` is rows `5000·t + s` of its array. -/
theorem blk1_apply (c : Dev nD) (t : Fin cfg0.N) (s : Fin 5000) (k : Fin 128) :
    (iblk m c 1 t : Vec Ideal S5000x128 .f32) (ix2 s k)
      = (m ((c : Thread nD τ).loc main_arg1) : S500000x128.Idx → EReal) (ix2 (g1 t.val (tN t) s) k) := by
  have e := idx_facts t
  unfold iblk
  rw [View.read_apply]
  show V m c main_arg1 _ = _
  rw [V_main_arg1]
  refine congrArg (m ((c : Thread nD τ).loc main_arg1) : S500000x128.Idx → EReal) (funext fun a => Fin.ext ?_)
  match a with
  | ⟨0, _⟩ => show win0_1.index t (0 : Fin 2) * 5000 + 1 * s.val = 5000 * t.val + s.val; omega
  | ⟨1, _⟩ => show win0_1.index t (1 : Fin 2) * 128 + 1 * k.val = k.val; omega

/-- Window 2's block at point `t` is rows `10000·t + u` of its array. -/
theorem blk2_apply (c : Dev nD) (t : Fin cfg0.N) (u : Fin 10000) (k : Fin 128) :
    (iblk m c 2 t : Vec Ideal S10000x128 .f32) (ix2 u k)
      = (m ((c : Thread nD τ).loc main_arg2) : S1000000x128.Idx → EReal) (ix2 (g2 t.val (tN t) u) k) := by
  have e := idx_facts t
  unfold iblk
  rw [View.read_apply]
  show V m c main_arg2 _ = _
  rw [V_main_arg2]
  refine congrArg (m ((c : Thread nD τ).loc main_arg2) : S1000000x128.Idx → EReal) (funext fun a => Fin.ext ?_)
  match a with
  | ⟨0, _⟩ => show win0_2.index t (0 : Fin 2) * 10000 + 1 * u.val = 10000 * t.val + u.val; omega
  | ⟨1, _⟩ => show win0_2.index t (1 : Fin 2) * 128 + 1 * k.val = k.val; omega

/-- Window 3's block at every point is its whole array: the stacked weights. -/
theorem blk3_eq (c : Dev nD) (t : Fin cfg0.N) :
    (iblk m c 3 t : Vec Ideal S256x128 .f32) = stackT128 (m ((c : Thread nD τ).loc main_arg5)) (m ((c : Thread nD τ).loc main_arg6)) := by
  have e := idx_facts t
  rw [← V_v2 m c]
  funext y
  unfold iblk
  rw [View.read_apply]
  show V m c main_v2 _ = V m c main_v2 y
  refine congrArg (V m c main_v2 : S256x128.Idx → EReal) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

/-- Window 4's block at every point is its whole array: the stacked weights. -/
theorem blk4_eq (c : Dev nD) (t : Fin cfg0.N) :
    (iblk m c 4 t : Vec Ideal S256x128 .f32) = stackT128 (m ((c : Thread nD τ).loc main_arg3)) (m ((c : Thread nD τ).loc main_arg4)) := by
  have e := idx_facts t
  rw [← V_v5 m c]
  funext y
  unfold iblk
  rw [View.read_apply]
  show V m c main_v5 _ = V m c main_v5 y
  refine congrArg (V m c main_v5 : S256x128.Idx → EReal) (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- Window 5's block at every point is its whole array: the stacked weights. -/
theorem blk5_eq (c : Dev nD) (t : Fin cfg0.N) :
    (iblk m c 5 t : Vec Ideal S256x64 .f32) = stackT64 (m ((c : Thread nD τ).loc main_arg9)) (m ((c : Thread nD τ).loc main_arg10)) := by
  have e := idx_facts t
  rw [← V_v8 m c]
  funext y
  unfold iblk
  rw [View.read_apply]
  show V m c main_v8 _ = V m c main_v8 y
  refine congrArg (V m c main_v8 : S256x64.Idx → EReal) (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

/-- Window 6's block at every point is its whole array: the stacked weights. -/
theorem blk6_eq (c : Dev nD) (t : Fin cfg0.N) :
    (iblk m c 6 t : Vec Ideal S256x64 .f32) = stackT64 (m ((c : Thread nD τ).loc main_arg7)) (m ((c : Thread nD τ).loc main_arg8)) := by
  have e := idx_facts t
  rw [← V_v11 m c]
  funext y
  unfold iblk
  rw [View.read_apply]
  show V m c main_v11 _ = V m c main_v11 y
  refine congrArg (V m c main_v11 : S256x64.Idx → EReal) (funext fun a => Fin.ext ?_)
  match a with
  | ⟨0, _⟩ => show win0_6.index t (0 : Fin 2) * 256 + 1 * (y 0).val = (y 0).val; omega
  | ⟨1, _⟩ => show win0_6.index t (1 : Fin 2) * 64 + 1 * (y 1).val = (y 1).val; omega

/-! ## What a point writes back -/

/-- The body's result at point `t`, entry `y` of the block, is the whole-array function at the entry's global index. -/
theorem entry (c : Dev nD) (t : Fin cfg0.N) (y : S1000x64.Idx) (i : S100000x64.Idx)
    (h0 : (i 0).val = 1000 * t.val + (y 0).val) (h1 : (i 1).val = (y 1).val) :
    k0_pay1 (k0_pay2 (iblk m c 0 t) (iblk m c 1 t) (iblk m c 2 t) (iblk m c 3 t) (iblk m c 4 t)) (k0_pay3 (iblk m c 5 t)) (iblk m c 6 t) y
      = Gm m c i := by
  obtain ⟨p, q, rfl⟩ : ∃ (p : Fin 1000) (q : Fin 64), y = ix2 p q := ⟨y 0, y 1, eq_ix2 y⟩
  obtain ⟨n, e, rfl⟩ : ∃ (n : Fin 100000) (e : Fin 64), i = ix2 n e := ⟨i 0, i 1, eq_ix2 i⟩
  obtain rfl : n = g0 t.val (tN t) p := Fin.ext h0
  obtain rfl : e = q := Fin.ext h1
  exact entry_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) t.val (tN t)
    (iblk m c 0 t) (iblk m c 1 t) (iblk m c 2 t) (iblk m c 3 t) (iblk m c 4 t) (iblk m c 5 t) (iblk m c 6 t)
    (blk0_apply m c t) (blk1_apply m c t) (blk2_apply m c t) (blk3_eq m c t) (blk4_eq m c t) (blk5_eq m c t) (blk6_eq m c t) p e

/-- What point `t` writes back is block `t` of the whole-array function. -/
theorem flushed_eq (c : Dev nD) (t : Fin cfg0.N) :
    (dats m 0 c).flushed 7 t = ((cfg0.win 7).blk t).view.read (Elt Ideal) (Gm m c) := by
  have e := idx_facts t
  rw [Value.flushed7]
  unfold out0_7
  rw [View.canon_unit_zero hz]
  simp only [View.ld_unit_zero (S := S1000x128) hz, View.ld_unit_zero (S := S5000x128) hz, View.ld_unit_zero (S := S10000x128) hz,
    View.ld_unit_zero (S := S256x128) hz, View.ld_unit_zero (S := S256x64) hz]
  funext y
  show k0_pay1 (k0_pay2 (iblk m c 0 t) (iblk m c 1 t) (iblk m c 2 t) (iblk m c 3 t) (iblk m c 4 t)) (k0_pay3 (iblk m c 5 t)) (iblk m c 6 t) y
      = Gm m c (((cfg0.win 7).blk t).view.emb y)
  exact entry m c t y _
    (by show win0_7.index t (0 : Fin 2) * 1000 + 1 * (y 0).val = 1000 * t.val + (y 0).val; omega)
    (by show win0_7.index t (1 : Fin 2) * 64 + 1 * (y 1).val = (y 1).val; omega)

/-! ## The blocks cover the result -/

/-- An index is in point `t`'s output block iff each coordinate is in the block's range on its axis. -/
theorem mem_blk (t : Fin cfg0.N) (i : S100000x64.Idx) :
    i ∈ ((cfg0.win 7).blk t).view.set ↔ ∀ a : Fin 2, win0_7.index t a * S1000x64.size a ≤ (i a).val ∧ (i a).val < win0_7.index t a * S1000x64.size a + S1000x64.size a := by
  show i ∈ ((View.whole main_v12).slice (win0_7.rect t)).set ↔ _
  rw [View.set_slice_whole, Rect.mem_set_unit]
  exact Iff.rfl

/-- Row `r` of the result lies in the block of point `r / 1000`. -/
theorem cover (i : S100000x64.Idx) : ∃ t : Fin cfg0.N, (cfg0.win 7).flush t = true ∧ i ∈ ((cfg0.win 7).blk t).view.set := by
  have h0 : (i 0).val < 100000 := (i 0).isLt
  have h1 : (i 1).val < 64 := (i 1).isLt
  obtain ⟨t, ht⟩ : ∃ t : Fin cfg0.N, t.val = (i 0).val / 1000 :=
    ⟨⟨(i 0).val / 1000, lt_of_lt_of_eq (show (i 0).val / 1000 < 100 by omega) N_0.symm⟩, rfl⟩
  have e := idx_facts t
  refine ⟨t, flush0_7 t, ?_⟩
  rw [mem_blk]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 64 ≤ (i 1).val ∧ (i 1).val < win0_7.index t (1 : Fin 2) * 64 + 64; omega

/-- After the run the result array is the whole-array function of the arguments. -/
theorem final (c : Dev nD) : (dats m 0 c).arrAt 7 cfg0.N = Gm m c :=
  (dats m 0 c).arrAt_eq_of_cover 7 (Gm m c) (fun t _ => flushed_eq m c t) cover

/-! ## The run -/

/-- Every weakly fair execution of the kernel's program terminates with the result array at the whole-array function
    of the arguments and the arguments unchanged. -/
theorem run : θ_run defs (onTc (τ := τ) (main (F := Ideal))) ⟨m, fun _ => 0, ρ⟩ fun r => ∀ c : Dev nD,
      r.2.mem ((c : Thread nD τ).loc main_v12) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.TwoHop.Arr

end
-- ==== Proof.RefNode.lean ====
/-
  The reference program, read stage by stage down to one element, is the two-hop function G.

  The reference stacks the seed rows on top of the neighbour rows (600000 rows: row n below 100000 is seed n, row
  100000 + q is neighbour q), stacks the matching neighbour means the same way, and applies the first layer to all
  600000 rows at once. The second layer reads the first 100000 result rows as the seeds' own features and the mean of the
  five result rows 100000 + 5n + j as their neighbour features. Reading every stage at one index turns each matrix
  product into a finite sum over the 128 input features, each mean into a sum divided by the count, and each stacked
  array into the piece its row falls in; what is left is row arithmetic.
-/
import proofs.«158179_j26465588478206_2_alg».proof.Proof.Gen.ReferenceIdeal.Read
import proofs.«158179_j26465588478206_2_alg».proof.Proof.SpikeGate
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.TwoHop.Ref

open Cert.ReferenceIdeal Cert.ReferenceIdeal.Gen Cert.ReferenceIdeal.Read
open Idealize.ShloMosaic Idealize.ShloMosaic.ValueIdx

/-! ## The gate, as the reference spells it -/

/-- The reference's sigmoid is "one over one plus the exponential of the negation", its firing indicator the
    comparison's bit converted as an unsigned integer: together the gate. -/
theorem gate_chain (u v : Ideal .f32) :
    FloatOps.mulf (F := Ideal) (φ := .f32)
      (FloatOps.hostDivf (FloatOps.ofBits .f32 0x3F800000#32)
        (FloatOps.addf (FloatOps.ofBits .f32 0x3F800000#32) (FloatOps.hostUnary .exp (FloatOps.hostNegf u))))
      (FloatOps.uitofp .f32 (FloatOps.cmpf .oge v (FloatOps.ofBits .f32 0x3F800000#32))) = gate u v := by
  show Ideal.div (Ideal.ofBits .f32 0x3F800000#32) (Ideal.ofBits .f32 0x3F800000#32 + Ideal.exp (-u)) * fire v
    = Ideal.div 1 (1 + Ideal.exp (-u)) * fire v
  rw [Ideal.ofBits_one_f32]

/-! ## Rows of the stacked arrays -/

/-- Seed n's row of the 600000-row arrays. -/
def seedRow (n : Fin 100000) : Fin 600000 := ⟨n.val, by have := n.isLt; omega⟩
/-- Neighbour q's row of the 600000-row arrays. -/
def nbrRow (q : Fin 500000) : Fin 600000 := ⟨100000 + q.val, by have := q.isLt; omega⟩
/-- Row 2q + i of the third array: neighbour i of neighbour q. -/
def row2 (q : Fin 500000) (i : Fin 2) : Fin 1000000 := ⟨2 * q.val + i.val, by have := q.isLt; have := i.isLt; omega⟩

/-- The two neighbours of neighbour 5n + j are rows 10n + 2j + i. -/
theorem row2_row5 (n : Fin 100000) (j : Fin 5) (i : Fin 2) : row2 (row5 n j) i = row10 n j i :=
  Fin.ext (by show 2 * (5 * n.val + j.val) + i.val = 10 * n.val + 2 * j.val + i.val; omega)

section Stacks
variable (x0 : (⟨S100000x128, .f32⟩ : BufTy).Contents (Elt Ideal)) (x1 : (⟨S500000x128, .f32⟩ : BufTy).Contents (Elt Ideal))
  (x2 : (⟨S1000000x128, .f32⟩ : BufTy).Contents (Elt Ideal))

/-- The stacked own-feature array at a seed's row is the first array's row. -/
theorem v0_seed (n : Fin 100000) (k : Fin 128) :
    val_main_v0 (F := Ideal) x0 x1 (ix2 (seedRow n) k) = x0 (ix2 n k) := by
  unfold val_main_v0
  exact concatenate_pair_apply_left 0 x0 x1 concatenates_S100000x128_S500000x128_S600000x128_d0 _ rfl _ (fun b => by
    match b with
    | ⟨0, _⟩ => rfl
    | ⟨1, _⟩ => rfl)

/-- The stacked own-feature array at a neighbour's row is the second array's row. -/
theorem v0_nbr (q : Fin 500000) (k : Fin 128) :
    val_main_v0 (F := Ideal) x0 x1 (ix2 (nbrRow q) k) = x1 (ix2 q k) := by
  unfold val_main_v0
  exact concatenate_pair_apply_right 0 x0 x1 concatenates_S100000x128_S500000x128_S600000x128_d0 _ rfl rfl _
    (fun b hb => by
      match b with
      | ⟨0, _⟩ => exact absurd rfl hb
      | ⟨1, _⟩ => rfl)
    (Nat.add_comm _ _)

end Stacks

/-! ## The neighbour means -/

section Means
variable (x1 : (⟨S500000x128, .f32⟩ : BufTy).Contents (Elt Ideal)) (x2 : (⟨S1000000x128, .f32⟩ : BufTy).Contents (Elt Ideal))

/-- The mean over a seed's five neighbours: rows 5n + j of the second array, summed and divided by five. -/
theorem v4_row (n : Fin 100000) (k : Fin 128) :
    val_main_v4 (F := Ideal) x1 (ix2 n k) = mean5 fun j => x1 (ix2 (row5 n j) k) := by
  rw [val_main_v4_apply, val_main_v2_apply, val_main_v3_apply, val_main_cst_0_apply, val_main_cst_apply]
  simp only [val_main_v1_apply]
  unfold mean5
  rw [Ideal.hostDivf_def, Ideal.ofBits_def, Ideal.ofBits_def, Ideal.ofBits_zero_f32, zero_add]
  refine congrArg (fun s => Ideal.div s _) (Finset.sum_congr rfl fun j _ => congrArg x1 ?_)
  funext a
  refine Fin.ext ?_
  have hk := k.isLt
  match a with
  | ⟨0, _⟩ =>
    show ((n.val * 5 + j.val) * 128 + k.val) / 128 = 5 * n.val + j.val
    omega
  | ⟨1, _⟩ =>
    show ((n.val * 5 + j.val) * 128 + k.val) % 128 = k.val
    omega

/-- The mean over a neighbour's two neighbours: rows 2q + i of the third array, summed and divided by two. -/
theorem v8_row (q : Fin 500000) (k : Fin 128) :
    val_main_v8 (F := Ideal) x2 (ix2 q k) = mean2 fun i => x2 (ix2 (row2 q i) k) := by
  rw [val_main_v8_apply, val_main_v6_apply, val_main_v7_apply, val_main_cst_2_apply, val_main_cst_1_apply]
  simp only [val_main_v5_apply]
  unfold mean2
  rw [Ideal.hostDivf_def, Ideal.ofBits_def, Ideal.ofBits_def, Ideal.ofBits_zero_f32, zero_add]
  refine congrArg (fun s => Ideal.div s _) (Finset.sum_congr rfl fun i _ => congrArg x2 ?_)
  funext a
  refine Fin.ext ?_
  have hk := k.isLt
  match a with
  | ⟨0, _⟩ =>
    show ((q.val * 2 + i.val) * 128 + k.val) / 128 = 2 * q.val + i.val
    omega
  | ⟨1, _⟩ =>
    show ((q.val * 2 + i.val) * 128 + k.val) % 128 = k.val
    omega

/-- The stacked neighbour-mean array at a seed's row is the mean of its five neighbours. -/
theorem v9_seed (n : Fin 100000) (k : Fin 128) :
    val_main_v9 (F := Ideal) x1 x2 (ix2 (seedRow n) k) = mean5 fun j => x1 (ix2 (row5 n j) k) := by
  rw [← v4_row]
  unfold val_main_v9
  exact concatenate_pair_apply_left 0 (val_main_v4 (F := Ideal) x1) (val_main_v8 (F := Ideal) x2)
    concatenates_S100000x128_S500000x128_S600000x128_d0 _ rfl _ (fun b => by
    match b with
    | ⟨0, _⟩ => rfl
    | ⟨1, _⟩ => rfl)

/-- The stacked neighbour-mean array at a neighbour's row is the mean of that neighbour's two neighbours. -/
theorem v9_nbr (q : Fin 500000) (k : Fin 128) :
    val_main_v9 (F := Ideal) x1 x2 (ix2 (nbrRow q) k) = mean2 fun i => x2 (ix2 (row2 q i) k) := by
  rw [← v8_row]
  unfold val_main_v9
  exact concatenate_pair_apply_right 0 (val_main_v4 (F := Ideal) x1) (val_main_v8 (F := Ideal) x2)
    concatenates_S100000x128_S500000x128_S600000x128_d0 _ rfl rfl _
    (fun b hb => by
      match b with
      | ⟨0, _⟩ => exact absurd rfl hb
      | ⟨1, _⟩ => rfl)
    (Nat.add_comm _ _)

end Means

/-! ## The first layer at any of the 600000 rows -/

section Layer1
variable (x0 : (⟨S100000x128, .f32⟩ : BufTy).Contents (Elt Ideal)) (x1 : (⟨S500000x128, .f32⟩ : BufTy).Contents (Elt Ideal))
  (x2 : (⟨S1000000x128, .f32⟩ : BufTy).Contents (Elt Ideal)) (x3 x4 x5 x6 : (⟨S128x128, .f32⟩ : BufTy).Contents (Elt Ideal))

/-! Each product with a transposed weight matrix, at row r and output feature c, is the sum over the 128 input features
    of the row's feature times the weight at (c, feature). -/

theorem v11_row (r : Fin 600000) (c : Fin 128) :
    val_main_v11 (F := Ideal) x0 x1 x5 (ix2 r c)
      = ∑ k : Fin 128, val_main_v0 (F := Ideal) x0 x1 (ix2 r k) * x5 (ix2 c k) := by
  rw [val_main_v11_apply]
  refine Finset.sum_congr rfl fun k _ => ?_
  rw [val_main_v10_apply]
  refine congrArg₂ (· * ·) (congrArg (val_main_v0 (F := Ideal) x0 x1) ?_) (congrArg x5 ?_)
  · exact funext fun a => Fin.ext (by match a with | ⟨0, _⟩ => rfl | ⟨1, _⟩ => rfl)
  · exact funext fun a => Fin.ext (by match a with | ⟨0, _⟩ => rfl | ⟨1, _⟩ => rfl)

theorem v13_row (r : Fin 600000) (c : Fin 128) :
    val_main_v13 (F := Ideal) x1 x2 x6 (ix2 r c)
      = ∑ k : Fin 128, val_main_v9 (F := Ideal) x1 x2 (ix2 r k) * x6 (ix2 c k) := by
  rw [val_main_v13_apply]
  refine Finset.sum_congr rfl fun k _ => ?_
  rw [val_main_v12_apply]
  refine congrArg₂ (· * ·) (congrArg (val_main_v9 (F := Ideal) x1 x2) ?_) (congrArg x6 ?_)
  · exact funext fun a => Fin.ext (by match a with | ⟨0, _⟩ => rfl | ⟨1, _⟩ => rfl)
  · exact funext fun a => Fin.ext (by match a with | ⟨0, _⟩ => rfl | ⟨1, _⟩ => rfl)

theorem v16_row (r : Fin 600000) (c : Fin 128) :
    val_main_v16 (F := Ideal) x0 x1 x3 (ix2 r c)
      = ∑ k : Fin 128, val_main_v0 (F := Ideal) x0 x1 (ix2 r k) * x3 (ix2 c k) := by
  rw [val_main_v16_apply]
  refine Finset.sum_congr rfl fun k _ => ?_
  rw [val_main_v15_apply]
  refine congrArg₂ (· * ·) (congrArg (val_main_v0 (F := Ideal) x0 x1) ?_) (congrArg x3 ?_)
  · exact funext fun a => Fin.ext (by match a with | ⟨0, _⟩ => rfl | ⟨1, _⟩ => rfl)
  · exact funext fun a => Fin.ext (by match a with | ⟨0, _⟩ => rfl | ⟨1, _⟩ => rfl)

theorem v18_row (r : Fin 600000) (c : Fin 128) :
    val_main_v18 (F := Ideal) x1 x2 x4 (ix2 r c)
      = ∑ k : Fin 128, val_main_v9 (F := Ideal) x1 x2 (ix2 r k) * x4 (ix2 c k) := by
  rw [val_main_v18_apply]
  refine Finset.sum_congr rfl fun k _ => ?_
  rw [val_main_v17_apply]
  refine congrArg₂ (· * ·) (congrArg (val_main_v9 (F := Ideal) x1 x2) ?_) (congrArg x4 ?_)
  · exact funext fun a => Fin.ext (by match a with | ⟨0, _⟩ => rfl | ⟨1, _⟩ => rfl)
  · exact funext fun a => Fin.ext (by match a with | ⟨0, _⟩ => rfl | ⟨1, _⟩ => rfl)

/-- The first layer's result at row r, output feature c: the layer applied to the row of the stacked own features and the
    row of the stacked neighbour means. -/
theorem v29_row (r : Fin 600000) (c : Fin 128) :
    val_main_v29 (F := Ideal) x0 x1 x2 x3 x4 x5 x6 (ix2 r c)
      = hop1 (fun c k => x3 (ix2 c k)) (fun c k => x4 (ix2 c k)) (fun c k => x5 (ix2 c k)) (fun c k => x6 (ix2 c k))
          (fun k => val_main_v0 (F := Ideal) x0 x1 (ix2 r k)) (fun k => val_main_v9 (F := Ideal) x1 x2 (ix2 r k)) c := by
  rw [val_main_v29_apply, val_main_v25_apply, val_main_v28_apply, val_main_v27_apply, val_main_v24_apply,
    val_main_v23_apply, val_main_v26_apply, val_main_v22_apply, val_main_v21_apply, val_main_v20_apply,
    val_main_v19_apply, val_main_v14_apply, val_main_cst_3_apply, val_main_cst_4_apply, val_main_cst_5_apply,
    v16_row, v18_row, v11_row, v13_row, gate_chain]
  rfl

end Layer1

/-! ## The second layer -/

section Layer2
variable (x0 : (⟨S100000x128, .f32⟩ : BufTy).Contents (Elt Ideal)) (x1 : (⟨S500000x128, .f32⟩ : BufTy).Contents (Elt Ideal))
  (x2 : (⟨S1000000x128, .f32⟩ : BufTy).Contents (Elt Ideal)) (x3 x4 x5 x6 : (⟨S128x128, .f32⟩ : BufTy).Contents (Elt Ideal))
  (x7 x8 x9 x10 : (⟨S64x128, .f32⟩ : BufTy).Contents (Elt Ideal))

/-- The seeds' own second-layer features: the first 100000 rows of the first layer's result. -/
theorem v30_row (n : Fin 100000) (c : Fin 128) :
    val_main_v30 (F := Ideal) x0 x1 x2 x3 x4 x5 x6 (ix2 n c) = val_main_v29 (F := Ideal) x0 x1 x2 x3 x4 x5 x6 (ix2 (seedRow n) c) := by
  rw [val_main_v30_apply]
  exact congrArg (val_main_v29 (F := Ideal) x0 x1 x2 x3 x4 x5 x6)
    (funext fun a => Fin.ext (by match a with | ⟨0, _⟩ => rfl | ⟨1, _⟩ => rfl))

/-- The seeds' second-layer neighbour features: the mean of the first layer's result over the five rows
    100000 + 5n + j. -/
theorem v35_row (n : Fin 100000) (c : Fin 128) :
    val_main_v35 (F := Ideal) x0 x1 x2 x3 x4 x5 x6 (ix2 n c)
      = mean5 fun j => val_main_v29 (F := Ideal) x0 x1 x2 x3 x4 x5 x6 (ix2 (nbrRow (row5 n j)) c) := by
  rw [val_main_v35_apply, val_main_v33_apply, val_main_v34_apply, val_main_cst_7_apply, val_main_cst_6_apply]
  simp only [val_main_v32_apply, val_main_v31_apply]
  unfold mean5
  rw [Ideal.hostDivf_def, Ideal.ofBits_def, Ideal.ofBits_def, Ideal.ofBits_zero_f32, zero_add]
  refine congrArg (fun s => Ideal.div s _)
    (Finset.sum_congr rfl fun j _ => congrArg (val_main_v29 (F := Ideal) x0 x1 x2 x3 x4 x5 x6) ?_)
  funext a
  refine Fin.ext ?_
  have hc := c.isLt
  match a with
  | ⟨0, _⟩ =>
    show 100000 + ((n.val * 5 + j.val) * 128 + c.val) / 128 = 100000 + (5 * n.val + j.val)
    omega
  | ⟨1, _⟩ =>
    show ((n.val * 5 + j.val) * 128 + c.val) % 128 = c.val
    omega

/-! The four products of the second layer, at seed n and output feature e. -/

theorem v37_row (n : Fin 100000) (e : Fin 64) :
    val_main_v37 (F := Ideal) x0 x1 x2 x3 x4 x5 x6 x9 (ix2 n e)
      = ∑ k : Fin 128, val_main_v30 (F := Ideal) x0 x1 x2 x3 x4 x5 x6 (ix2 n k) * x9 (ix2 e k) := by
  rw [val_main_v37_apply]
  refine Finset.sum_congr rfl fun k _ => ?_
  rw [val_main_v36_apply]
  refine congrArg₂ (· * ·) (congrArg (val_main_v30 (F := Ideal) x0 x1 x2 x3 x4 x5 x6) ?_) (congrArg x9 ?_)
  · exact funext fun a => Fin.ext (by match a with | ⟨0, _⟩ => rfl | ⟨1, _⟩ => rfl)
  · exact funext fun a => Fin.ext (by match a with | ⟨0, _⟩ => rfl | ⟨1, _⟩ => rfl)

theorem v39_row (n : Fin 100000) (e : Fin 64) :
    val_main_v39 (F := Ideal) x0 x1 x2 x3 x4 x5 x6 x10 (ix2 n e)
      = ∑ k : Fin 128, val_main_v35 (F := Ideal) x0 x1 x2 x3 x4 x5 x6 (ix2 n k) * x10 (ix2 e k) := by
  rw [val_main_v39_apply]
  refine Finset.sum_congr rfl fun k _ => ?_
  rw [val_main_v38_apply]
  refine congrArg₂ (· * ·) (congrArg (val_main_v35 (F := Ideal) x0 x1 x2 x3 x4 x5 x6) ?_) (congrArg x10 ?_)
  · exact funext fun a => Fin.ext (by match a with | ⟨0, _⟩ => rfl | ⟨1, _⟩ => rfl)
  · exact funext fun a => Fin.ext (by match a with | ⟨0, _⟩ => rfl | ⟨1, _⟩ => rfl)

theorem v42_row (n : Fin 100000) (e : Fin 64) :
    val_main_v42 (F := Ideal) x0 x1 x2 x3 x4 x5 x6 x7 (ix2 n e)
      = ∑ k : Fin 128, val_main_v30 (F := Ideal) x0 x1 x2 x3 x4 x5 x6 (ix2 n k) * x7 (ix2 e k) := by
  rw [val_main_v42_apply]
  refine Finset.sum_congr rfl fun k _ => ?_
  rw [val_main_v41_apply]
  refine congrArg₂ (· * ·) (congrArg (val_main_v30 (F := Ideal) x0 x1 x2 x3 x4 x5 x6) ?_) (congrArg x7 ?_)
  · exact funext fun a => Fin.ext (by match a with | ⟨0, _⟩ => rfl | ⟨1, _⟩ => rfl)
  · exact funext fun a => Fin.ext (by match a with | ⟨0, _⟩ => rfl | ⟨1, _⟩ => rfl)

theorem v44_row (n : Fin 100000) (e : Fin 64) :
    val_main_v44 (F := Ideal) x0 x1 x2 x3 x4 x5 x6 x8 (ix2 n e)
      = ∑ k : Fin 128, val_main_v35 (F := Ideal) x0 x1 x2 x3 x4 x5 x6 (ix2 n k) * x8 (ix2 e k) := by
  rw [val_main_v44_apply]
  refine Finset.sum_congr rfl fun k _ => ?_
  rw [val_main_v43_apply]
  refine congrArg₂ (· * ·) (congrArg (val_main_v35 (F := Ideal) x0 x1 x2 x3 x4 x5 x6) ?_) (congrArg x8 ?_)
  · exact funext fun a => Fin.ext (by match a with | ⟨0, _⟩ => rfl | ⟨1, _⟩ => rfl)
  · exact funext fun a => Fin.ext (by match a with | ⟨0, _⟩ => rfl | ⟨1, _⟩ => rfl)

/-- The reference's result at seed n, output feature e: the layer applied to the two second-layer feature rows. -/
theorem v55_row (n : Fin 100000) (e : Fin 64) :
    val_main_v55 (F := Ideal) x0 x1 x2 x3 x4 x5 x6 x7 x8 x9 x10 (ix2 n e)
      = layer (fun c => val_main_v30 (F := Ideal) x0 x1 x2 x3 x4 x5 x6 (ix2 n c)) (fun c => val_main_v35 (F := Ideal) x0 x1 x2 x3 x4 x5 x6 (ix2 n c))
          (fun k => x7 (ix2 e k)) (fun k => x8 (ix2 e k)) (fun k => x9 (ix2 e k)) (fun k => x10 (ix2 e k)) := by
  rw [val_main_v55_apply, val_main_v51_apply, val_main_v54_apply, val_main_v53_apply, val_main_v50_apply,
    val_main_v49_apply, val_main_v52_apply, val_main_v48_apply, val_main_v47_apply, val_main_v46_apply,
    val_main_v45_apply, val_main_v40_apply, val_main_cst_8_apply, val_main_cst_9_apply, val_main_cst_10_apply,
    v42_row, v44_row, v37_row, v39_row, gate_chain]
  rfl

/-- The reference computes the two-hop function. -/
theorem ref_is_G :
    val_main_v55 (F := Ideal) x0 x1 x2 x3 x4 x5 x6 x7 x8 x9 x10 = G x0 x1 x2 x3 x4 x5 x6 x7 x8 x9 x10 := by
  funext i
  obtain ⟨n, e, rfl⟩ : ∃ (n : Fin 100000) (e : Fin 64), i = ix2 n e := ⟨i 0, i 1, eq_ix2 i⟩
  have h1 : (fun c => val_main_v30 (F := Ideal) x0 x1 x2 x3 x4 x5 x6 (ix2 n c))
      = hop1 (fun c k => x3 (ix2 c k)) (fun c k => x4 (ix2 c k)) (fun c k => x5 (ix2 c k)) (fun c k => x6 (ix2 c k))
          (fun k => x0 (ix2 n k)) (fun k => mean5 fun j => x1 (ix2 (row5 n j) k)) := funext fun c => by
    rw [v30_row, v29_row]
    simp only [v0_seed, v9_seed]
  have h2 : (fun c => val_main_v35 (F := Ideal) x0 x1 x2 x3 x4 x5 x6 (ix2 n c))
      = fun c => mean5 fun j => hop1 (fun c k => x3 (ix2 c k)) (fun c k => x4 (ix2 c k)) (fun c k => x5 (ix2 c k))
          (fun c k => x6 (ix2 c k)) (fun k => x1 (ix2 (row5 n j) k)) (fun k => mean2 fun i => x2 (ix2 (row10 n j i) k)) c :=
    funext fun c => by
      rw [v35_row]
      simp only [v29_row, v0_nbr, v9_nbr, row2_row5]
  rw [v55_row, h1, h2]
  rfl

end Layer2

end Cert.TwoHop.Ref

end
-- ==== Proof.lean ====
/- The kernel and its reference compute one function, and every program runs to completion leaving its arguments alone.

   The function: for each of 100000 seed nodes, a first gated layer (sigmoid of one linear form times the indicator that
   another reaches 1) applied to the seed against the mean of its five neighbours and to each neighbour against the mean
   of its two, then a second gated layer applied to the seed's result against the mean of the five neighbours' results
   (`Cert.TwoHop.G`, Proof/SpikeGate.lean). The kernel computes it a block of 1000 seeds at a time, with each pair of
   weight matrices transposed and stacked so that "own row times one matrix plus neighbour mean times the other" is a
   single product over 256 positions; the reference computes it on whole arrays with the two products kept apart. A
   sum over 256 positions is the sum over the first 128 plus the sum over the last 128, which needs only that addition
   on the extended reals is associative and commutative: the precondition (finite inputs) is not used.

   The three frame claims are the generated frame runs; `preserves` has nothing to state (no operation was rewritten);
   `algebraic` sets the kernel's run (Proof/Arrays.lean) beside the reference's (Proof/RefNode.lean) at the same
   function of arguments that agree. -/
import proofs.«158179_j26465588478206_2_alg».proof.Defs
import proofs.«158179_j26465588478206_2_alg».proof.Proof.Gen.Kernel
import proofs.«158179_j26465588478206_2_alg».proof.Proof.Gen.Kernel.Skeleton
import proofs.«158179_j26465588478206_2_alg».proof.Proof.Gen.Kernel.Launch
import proofs.«158179_j26465588478206_2_alg».proof.Proof.Gen.Kernel.Points
import proofs.«158179_j26465588478206_2_alg».proof.Proof.Gen.Kernel.Frame
import proofs.«158179_j26465588478206_2_alg».proof.Proof.Gen.KernelIdeal
import proofs.«158179_j26465588478206_2_alg».proof.Proof.Gen.KernelIdeal.Skeleton
import proofs.«158179_j26465588478206_2_alg».proof.Proof.Gen.KernelIdeal.Launch
import proofs.«158179_j26465588478206_2_alg».proof.Proof.Gen.KernelIdeal.Points
import proofs.«158179_j26465588478206_2_alg».proof.Proof.Gen.KernelIdeal.Frame
import proofs.«158179_j26465588478206_2_alg».proof.Proof.Gen.ReferenceIdeal
import proofs.«158179_j26465588478206_2_alg».proof.Proof.Gen.Pre_finite_inputs
import proofs.«158179_j26465588478206_2_alg».proof.Proof.Gen.KernelIdeal.Value
import proofs.«158179_j26465588478206_2_alg».proof.Proof.Gen.ReferenceIdeal.Run
import proofs.«158179_j26465588478206_2_alg».proof.Proof.Gen.ReferenceIdeal.Read
import proofs.«158179_j26465588478206_2_alg».proof.Proof.Arrays
import proofs.«158179_j26465588478206_2_alg».proof.Proof.RefNode
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel [Cert.Kernel.Facts] [Cert.Pre_finite_inputs.Facts] : Cert.frame_Kernel :=
  fun m ρ _ => Cert.Kernel.Gen.frame m ρ

/-- So does its reading over the extended reals. -/
theorem frame_kernelIdeal [Cert.KernelIdeal.Facts] [Cert.Pre_finite_inputs.Facts] : Cert.frame_KernelIdeal :=
  fun m ρ _ => Cert.KernelIdeal.Gen.frame m ρ

/-- The reference is a straight line of whole-array operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From arguments that agree, the kernel's result array and the reference's are the same function of them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.TwoHop.Arr.Gm m c, Cert.TwoHop.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v55_eq, Cert.TwoHop.Ref.ref_is_G, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
